-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S393216 : Shape := ⟨1, ![393216]⟩
abbrev S393216x1 : Shape := ⟨2, ![393216, 1]⟩
abbrev S1x257 : Shape := ⟨2, ![1, 257]⟩
abbrev S1 : Shape := ⟨1, ![1]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S393216x1 : S_.BroadcastsInDim S393216x1 (![] : Fin 0 → Fin S393216x1.rank)
  reducesTo_S393216x1_S_d0_1 : S393216x1.ReducesTo [0, 1] S_
  bcast_S_S1x257 : S_.BroadcastsInDim S1x257 (![] : Fin 0 → Fin S1x257.rank)
  reducesTo_S1x257_S_d0_1 : S1x257.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S12288x128 .f32) (main_arg1 : IVec S393216 32) (main_arg2 : IVec S393216 32) (main_arg3 : FVec F S393216x1 .f32) (main_arg4 : FVec F S1x257 .f32) (main_arg5 : FVec F S1 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S393216x1 .f32 := Host.absf main_arg3
  let main_cst_0 : FVec F S_ .f32 := constant S_ .f32 0x7F800000#32
  let main_v5 : FVec F S393216x1 .f32 := broadcastInDim S393216x1 ![] bcast_S_S393216x1 main_cst_0
  let main_v6 : IVec S393216x1 1 := cmpf .olt main_v4 main_v5
  let main_c_1 : IVec S_ 1 := constantI S_ 1 1#1
  let main_v7 : IVec S_ 1 := (fun x v => Host.reduce IntOp.andi x v reducesTo_S393216x1_S_d0_1 h_S_) main_v6 main_c_1
  let main_v8 : IVec S_ 1 := andi main_v3 main_v7
  let main_v9 : FVec F S1x257 .f32 := Host.absf main_arg4
  let main_cst_2 : FVec F S_ .f32 := constant S_ .f32 0x7F800000#32
  let main_v10 : FVec F S1x257 .f32 := broadcastInDim S1x257 ![] bcast_S_S1x257 main_cst_2
  let main_v11 : IVec S1x257 1 := cmpf .olt main_v9 main_v10
  let main_c_3 : IVec S_ 1 := constantI S_ 1 1#1
  let main_v12 : IVec S_ 1 := (fun x v => Host.reduce IntOp.andi x v reducesTo_S1x257_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S12288x128 : Shape := ⟨2, ![12288, 128]⟩
abbrev S393216 : Shape := ⟨1, ![393216]⟩
abbrev S393216x1 : Shape := ⟨2, ![393216, 1]⟩
abbrev S1x257 : Shape := ⟨2, ![1, 257]⟩
abbrev S1 : Shape := ⟨1, ![1]⟩
abbrev S1x128 : Shape := ⟨2, ![1, 128]⟩
abbrev S128 : Shape := ⟨1, ![128]⟩
abbrev S1x1 : Shape := ⟨2, ![1, 1]⟩
abbrev S_ : Shape := ⟨0, ![]⟩
abbrev S1x12288 : Shape := ⟨2, ![1, 12288]⟩
abbrev S12288 : Shape := ⟨1, ![12288]⟩
abbrev S12288x12288 : Shape := ⟨2, ![12288, 12288]⟩
abbrev S393216x2 : Shape := ⟨2, ![393216, 2]⟩
abbrev S256x12288 : Shape := ⟨2, ![256, 12288]⟩

abbrev nBuf : Space → Nat
  | .hbm => 63
  | .vmem => 7
  | .smem => 0
  | _ => 0

abbrev bufTy : (tb : Table) → Fin (tcTables nBuf tb) → BufTy
  | .hbm, ⟨0, _⟩ => ⟨S12288x128, .f32⟩
  | .hbm, ⟨1, _⟩ => ⟨S393216, .i32⟩
  | .hbm, ⟨2, _⟩ => ⟨S393216, .i32⟩
  | .hbm, ⟨3, _⟩ => ⟨S393216x1, .f32⟩
  | .hbm, ⟨4, _⟩ => ⟨S1x257, .f32⟩
  | .hbm, ⟨5, _⟩ => ⟨S1, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S1x12288, .f32⟩
  | .hbm, ⟨16, _⟩ => ⟨S1x12288, .f32⟩
  | .hbm, ⟨17, _⟩ => ⟨S12288, .f32⟩
  | .hbm, ⟨18, _⟩ => ⟨S12288, .f32⟩
  | .hbm, ⟨19, _⟩ => ⟨S12288x12288, .f32⟩
  | .hbm, ⟨20, _⟩ => ⟨S_, .i32⟩
  | .hbm, ⟨21, _⟩ => ⟨S393216, .i32⟩
  | .hbm, ⟨22, _⟩ => ⟨S393216, .i1⟩
  | .hbm, ⟨23, _⟩ => ⟨S_, .i32⟩
  | .hbm, ⟨24, _⟩ => ⟨S393216, .i32⟩
  | .hbm, ⟨25, _⟩ => ⟨S393216, .i32⟩
  | .hbm, ⟨26, _⟩ => ⟨S393216, .i32⟩
  | .hbm, ⟨27, _⟩ => ⟨S393216x1, .i32⟩
  | .hbm, ⟨28, _⟩ => ⟨S393216, .f32⟩
  | .hbm, ⟨29, _⟩ => ⟨S_, .i32⟩
  | .hbm, ⟨30, _⟩ => ⟨S393216, .i32⟩
  | .hbm, ⟨31, _⟩ => ⟨S393216, .i1⟩
  | .hbm, ⟨32, _⟩ => ⟨S_, .i32⟩
  | .hbm, ⟨33, _⟩ => ⟨S393216, .i32⟩
  | .hbm, ⟨34, _⟩ => ⟨S393216, .i32⟩
  | .hbm, ⟨35, _⟩ => ⟨S393216, .i32⟩
  | .hbm, ⟨36, _⟩ => ⟨S393216x1, .i32⟩
  | .hbm, ⟨37, _⟩ => ⟨S393216, .f32⟩
  | .hbm, ⟨38, _⟩ => ⟨S393216, .f32⟩
  | .hbm, ⟨39, _⟩ => ⟨S393216, .f32⟩
  | .hbm, ⟨40, _⟩ => ⟨S393216, .f32⟩
  | .hbm, ⟨41, _⟩ => ⟨S393216, .f32⟩
  | .hbm, ⟨42, _⟩ => ⟨S393216, .f32⟩
  | .hbm, ⟨43, _⟩ => ⟨S393216, .f32⟩
  | .hbm, ⟨44, _⟩ => ⟨S393216, .f32⟩
  | .hbm, ⟨45, _⟩ => ⟨S_, .i32⟩
  | .hbm, ⟨46, _⟩ => ⟨S393216, .i32⟩
  | .hbm, ⟨47, _⟩ => ⟨S393216, .i1⟩
  | .hbm, ⟨48, _⟩ => ⟨S_, .i32⟩
  | .hbm, ⟨49, _⟩ => ⟨S393216, .i32⟩
  | .hbm, ⟨50, _⟩ => ⟨S393216, .i32⟩
  | .hbm, ⟨51, _⟩ => ⟨S393216, .i32⟩
  | .hbm, ⟨52, _⟩ => ⟨S_, .i32⟩
  | .hbm, ⟨53, _⟩ => ⟨S393216, .i32⟩
  | .hbm, ⟨54, _⟩ => ⟨S393216, .i1⟩
  | .hbm, ⟨55, _⟩ => ⟨S_, .i32⟩
  | .hbm, ⟨56, _⟩ => ⟨S393216, .i32⟩
  | .hbm, ⟨57, _⟩ => ⟨S393216, .i32⟩
  | .hbm, ⟨58, _⟩ => ⟨S393216, .i32⟩
  | .hbm, ⟨59, _⟩ => ⟨S393216x1, .i32⟩
  | .hbm, ⟨60, _⟩ => ⟨S393216x1, .i32⟩
  | .hbm, ⟨61, _⟩ => ⟨S393216x2, .i32⟩
  | .hbm, ⟨62, _⟩ => ⟨S12288x12288, .f32⟩
  | .local _ .vmem, ⟨0, _⟩ => ⟨S12288x128, .f32⟩
  | .local _ .vmem, ⟨1, _⟩ => ⟨S1x128, .f32⟩
  | .local _ .vmem, ⟨2, _⟩ => ⟨S1x128, .f32⟩
  | .local _ .vmem, ⟨3, _⟩ => ⟨S1x12288, .f32⟩
  | .local _ .vmem, ⟨4, _⟩ => ⟨S1x12288, .f32⟩
  | .local _ .vmem, ⟨5, _⟩ => ⟨S256x12288, .f32⟩
  | .local _ .vmem, ⟨6, _⟩ => ⟨S256x12288, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9_0 : Ref sig .tc := ⟨.hbm, 15, rfl⟩
abbrev main_call0_v9_1 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_c : Ref sig .tc := ⟨.hbm, 20, rfl⟩
abbrev main_call0_v13 : Ref sig .tc := ⟨.hbm, 21, rfl⟩
abbrev main_call0_v14 : Ref sig .tc := ⟨.hbm, 22, rfl⟩
abbrev main_call0_c_0 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_c_1 : Ref sig .tc := ⟨.hbm, 29, rfl⟩
abbrev main_call0_v20 : Ref sig .tc := ⟨.hbm, 30, rfl⟩
abbrev main_call0_v21 : Ref sig .tc := ⟨.hbm, 31, rfl⟩
abbrev main_call0_c_2 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_call0_c_3 : Ref sig .tc := ⟨.hbm, 45, rfl⟩
abbrev main_call0_v34 : Ref sig .tc := ⟨.hbm, 46, rfl⟩
abbrev main_call0_v35 : Ref sig .tc := ⟨.hbm, 47, rfl⟩
abbrev main_call0_c_4 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_c_5 : Ref sig .tc := ⟨.hbm, 52, rfl⟩
abbrev main_call0_v39 : Ref sig .tc := ⟨.hbm, 53, rfl⟩
abbrev main_call0_v40 : Ref sig .tc := ⟨.hbm, 54, rfl⟩
abbrev main_call0_c_6 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_v44 : Ref sig .tc := ⟨.hbm, 59, rfl⟩
abbrev main_call0_v45 : Ref sig .tc := ⟨.hbm, 60, rfl⟩
abbrev main_call0_v46 : Ref sig .tc := ⟨.hbm, 61, rfl⟩
abbrev main_v0 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  slices_S1x257_S1x128_0_0 : S1x257.Slices ![0, 0] S1x128
  shapeCasts_S1x128_S128 : S1x128.ShapeCasts S128
  slices_S1x257_S1x128_0_128 : S1x257.Slices ![0, 128] S1x128
  slices_S1x257_S1x1_0_256 : S1x257.Slices ![0, 256] S1x1
  shapeCasts_S1x1_S_ : S1x1.ShapeCasts S_
  shapeCasts_S1_S_ : S1.ShapeCasts S_
  bcast_S128_S1x128_1 : S128.BroadcastsInDim S1x128 (![1] : Fin 1 → Fin S1x128.rank)
  shapeCasts_S1x12288_S12288 : S1x12288.ShapeCasts S12288
  bcast_S_S393216 : S_.BroadcastsInDim S393216 (![] : Fin 0 → Fin S393216.rank)
  bcast_S393216_S393216x1_0 : S393216.BroadcastsInDim S393216x1 (![0] : Fin 1 → Fin S393216x1.rank)
  shapeCasts_S393216x1_S393216 : S393216x1.ShapeCasts S393216
  concatenates_S393216x1_S393216x1_S393216x2_d1 : Shape.Concatenates [S393216x1, S393216x1] S393216x2 1
  inb_S12288x128_S12288x128_0_0 : ∀ a, (![0, 0] : Fin 2 → Nat) a + S12288x128.size a ≤ S12288x128.size a
  h_S12288x128 : 0 < S12288x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12288x128 : S1x128.Broadcasts S12288x128
  reduces_S12288x128_S12288 : S12288x128.Reduces [1] S12288
  shapeCasts_S12288_S1x12288 : S12288.ShapeCasts S1x12288
  inb_S1x12288_S1x12288_0_0 : ∀ a, (![0, 0] : Fin 2 → Nat) a + S1x12288.size a ≤ S1x12288.size a
  h_S1x12288 : 0 < S1x12288.numel
  inb_S256x12288_S256x12288_0_0 : ∀ a, (![0, 0] : Fin 2 → Nat) a + S256x12288.size a ≤ S256x12288.size a
  h_S256x12288 : 0 < S256x12288.numel
  gather_S12288_S393216x1_S393216_n_0_n_n_0_1_1_wf : GatherDims.WF S12288 S393216x1 S393216 [] [0] [] [0] [] 1 ![1]
  scatter_S12288x12288_S393216x2_S393216_n_01_01_1_wf : ScatterDims.WF S12288x12288 S393216x2 S393216 [] [0, 1] [0, 1] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12288x128.size a ≤ S12288x128.size a
  hwx0_0 : ∀ i : grid0.Coords, EltTy.bits .f32 = 32 ∨ (Rect.block (s := S12288x128) S12288x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12288.size a ≤ S1x12288.size a
  hwx0_3 : ∀ i : grid0.Coords, EltTy.bits .f32 = 32 ∨ (Rect.block (s := S1x12288) S1x12288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x12288.size a ≤ S1x12288.size a
  hwx0_4 : ∀ i : grid0.Coords, EltTy.bits .f32 = 32 ∨ (Rect.block (s := S1x12288) S1x12288.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x12288.size a ≤ S12288x12288.size a
  hwx1_0 : ∀ i : grid1.Coords, EltTy.bits .f32 = 32 ∨ (Rect.block (s := S12288x12288) S256x12288.size (cc1_transform_0 i) (hinb1_0 i)).WholeWords (EltTy.packing .f32)

variable [Facts₀]

def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def scatter_S12288x12288_S393216x2_S393216_n_01_01_1 : ScatterDims S12288x12288 S393216x2 S393216 where
  updateWindowDims := []
  insertedWindowDims := [0, 1]
  scatterDimsToOperandDims := [0, 1]
  indexVectorDim := 1
  wf := scatter_S12288x12288_S393216x2_S393216_n_01_01_1_wf

abbrev win0_0 : Pipeline.Window sig grid0 :=
  Pipeline.Window.ofSpec (Memref.whole main_arg0) S12288x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9_0) S1x12288.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9_1) S1x12288.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v12) S256x12288.size cc1_transform_0 reads1_0 true false 2 stage1_0 sem1_0
    hrank1 hreads1_0 hinb1_0 nbuf1_0 (Memref.isWhole_whole _) hwx1_0 hstage1_0

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

class Facts : Prop extends Facts₀ where

variable [Facts]
-- ==== ReferenceIdeal.lean ====
abbrev S12288x128 : Shape := ⟨2, ![12288, 128]⟩
abbrev S393216 : Shape := ⟨1, ![393216]⟩
abbrev S393216x1 : Shape := ⟨2, ![393216, 1]⟩
abbrev S1x257 : Shape := ⟨2, ![1, 257]⟩
abbrev S1 : Shape := ⟨1, ![1]⟩
abbrev S_ : Shape := ⟨0, ![]⟩
abbrev S393216x128 : Shape := ⟨2, ![393216, 128]⟩
abbrev S393216x257 : Shape := ⟨2, ![393216, 257]⟩
abbrev S257x1 : Shape := ⟨2, ![257, 1]⟩
abbrev S1x1 : Shape := ⟨2, ![1, 1]⟩
abbrev S12288x12288 : Shape := ⟨2, ![12288, 12288]⟩
abbrev S393216x2 : Shape := ⟨2, ![393216, 2]⟩

abbrev nBuf : Space → Nat
  | .hbm => 51
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S393216, .i32⟩
  | .hbm, ⟨2, _⟩ => ⟨S393216, .i32⟩
  | .hbm, ⟨3, _⟩ => ⟨S393216x1, .f32⟩
  | .hbm, ⟨4, _⟩ => ⟨S1x257, .f32⟩
  | .hbm, ⟨5, _⟩ => ⟨S1, .f32⟩
  | .hbm, ⟨6, _⟩ => ⟨S_, .i32⟩
  | .hbm, ⟨7, _⟩ => ⟨S393216, .i32⟩
  | .hbm, ⟨8, _⟩ => ⟨S393216, .i1⟩
  | .hbm, ⟨9, _⟩ => ⟨S_, .i32⟩
  | .hbm, ⟨10, _⟩ => ⟨S393216, .i32⟩
  | .hbm, ⟨11, _⟩ => ⟨S393216, .i32⟩
  | .hbm, ⟨12, _⟩ => ⟨S393216, .i32⟩
  | .hbm, ⟨13, _⟩ => ⟨S393216x1, .i32⟩
  | .hbm, ⟨14, _⟩ => ⟨S393216x128, .f32⟩
  | .hbm, ⟨15, _⟩ => ⟨S_, .i32⟩
  | .hbm, ⟨16, _⟩ => ⟨S393216, .i32⟩
  | .hbm, ⟨17, _⟩ => ⟨S393216, .i1⟩
  | .hbm, ⟨18, _⟩ => ⟨S_, .i32⟩
  | .hbm, ⟨19, _⟩ => ⟨S393216, .i32⟩
  | .hbm, ⟨20, _⟩ => ⟨S393216, .i32⟩
  | .hbm, ⟨21, _⟩ => ⟨S393216, .i32⟩
  | .hbm, ⟨22, _⟩ => ⟨S393216x1, .i32⟩
  | .hbm, ⟨23, _⟩ => ⟨S393216x128, .f32⟩
  | .hbm, ⟨24, _⟩ => ⟨S393216x257, .f32⟩
  | .hbm, ⟨25, _⟩ => ⟨S257x1, .f32⟩
  | .hbm, ⟨26, _⟩ => ⟨S393216x1, .f32⟩
  | .hbm, ⟨27, _⟩ => ⟨S1x1, .f32⟩
  | .hbm, ⟨28, _⟩ => ⟨S393216x1, .f32⟩
  | .hbm, ⟨29, _⟩ => ⟨S393216x1, .f32⟩
  | .hbm, ⟨30, _⟩ => ⟨S393216, .f32⟩
  | .hbm, ⟨31, _⟩ => ⟨S_, .f32⟩
  | .hbm, ⟨32, _⟩ => ⟨S12288x12288, .f32⟩
  | .hbm, ⟨33, _⟩ => ⟨S_, .i32⟩
  | .hbm, ⟨34, _⟩ => ⟨S393216, .i32⟩
  | .hbm, ⟨35, _⟩ => ⟨S393216, .i1⟩
  | .hbm, ⟨36, _⟩ => ⟨S_, .i32⟩
  | .hbm, ⟨37, _⟩ => ⟨S393216, .i32⟩
  | .hbm, ⟨38, _⟩ => ⟨S393216, .i32⟩
  | .hbm, ⟨39, _⟩ => ⟨S393216, .i32⟩
  | .hbm, ⟨40, _⟩ => ⟨S_, .i32⟩
  | .hbm, ⟨41, _⟩ => ⟨S393216, .i32⟩
  | .hbm, ⟨42, _⟩ => ⟨S393216, .i1⟩
  | .hbm, ⟨43, _⟩ => ⟨S_, .i32⟩
  | .hbm, ⟨44, _⟩ => ⟨S393216, .i32⟩
  | .hbm, ⟨45, _⟩ => ⟨S393216, .i32⟩
  | .hbm, ⟨46, _⟩ => ⟨S393216, .i32⟩
  | .hbm, ⟨47, _⟩ => ⟨S393216x1, .i32⟩
  | .hbm, ⟨48, _⟩ => ⟨S393216x1, .i32⟩
  | .hbm, ⟨49, _⟩ => ⟨S393216x2, .i32⟩
  | .hbm, ⟨50, _⟩ => ⟨S12288x12288, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S_S393216 : S_.BroadcastsInDim S393216 (![] : Fin 0 → Fin S393216.rank)
  bcast_S393216_S393216x1_0 : S393216.BroadcastsInDim S393216x1 (![0] : Fin 1 → Fin S393216x1.rank)
  concatenates_S393216x128_S393216x128_S393216x1_S393216x257_d1 : Shape.Concatenates [S393216x128, S393216x128, S393216x1] S393216x257 1
  transposes_S1x257_S257x1_1_0 : S1x257.Transposes [1, 0] S257x1
  bcast_S1_S1x1_1 : S1.BroadcastsInDim S1x1 (![1] : Fin 1 → Fin S1x1.rank)
  bcast_S1x1_S393216x1_0_1 : S1x1.BroadcastsInDim S393216x1 (![0, 1] : Fin 2 → Fin S393216x1.rank)
  shapeCasts_S393216x1_S393216 : S393216x1.ShapeCasts S393216
  bcast_S_S12288x12288 : S_.BroadcastsInDim S12288x12288 (![] : Fin 0 → Fin S12288x12288.rank)
  concatenates_S393216x1_S393216x1_S393216x2_d1 : Shape.Concatenates [S393216x1, S393216x1] S393216x2 1
  gather_S12288x128_S393216x1_S393216x128_1_0_n_n_0_1_1128_wf : GatherDims.WF S12288x128 S393216x1 S393216x128 [1] [0] [] [0] [] 1 ![1, 128]
  dot_S393216x257_S257x1_S393216x1_1_0_0_1_n_n_wf : DotDims.WF S393216x257 S257x1 S393216x1 [1] [0] [0] [1] [] []
  scatter_S12288x12288_S393216x2_S393216_n_01_01_1_wf : ScatterDims.WF S12288x12288 S393216x2 S393216 [] [0, 1] [0, 1] 1

variable [Facts₀]

def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def dot_S393216x257_S257x1_S393216x1_1_0_0_1_n_n : DotDims S393216x257 S257x1 S393216x1 where
  lhsContracting := [1]
  rhsContracting := [0]
  lhsNonContracting := [0]
  rhsNonContracting := [1]
  lhsBatch := []
  rhsBatch := []
  wf := dot_S393216x257_S257x1_S393216x1_1_0_0_1_n_n_wf
def scatter_S12288x12288_S393216x2_S393216_n_01_01_1 : ScatterDims S12288x12288 S393216x2 S393216 where
  updateWindowDims := []
  insertedWindowDims := [0, 1]
  scatterDimsToOperandDims := [0, 1]
  indexVectorDim := 1
  wf := scatter_S12288x12288_S393216x2_S393216_n_01_01_1_wf

class Facts : Prop extends Facts₀ where

variable [Facts]
-- ==== Proof.FillRegion.lean ====
/-
  The fill region: what the score matrix holds when the region ends.

  The region has one output window and no input: at grid point t (of 48) the body stores the constant −10⁹ over the
  whole 256 × 12288 staging block, and the block is written back to rows 256·t … 256·t + 255 of the 12288 × 12288 array.
  Every point therefore writes back its block of ONE whole-array function, the constant one; and row r lies in the
  block of point r / 256, so the 48 blocks cover the array. Hence the array ends constant.
-/
import proofs.«165868_j76081050682084_2_alg».proof.Proof.KernelIdealFrameP
import Idealize.ShloMosaic.Lib.Pipeline.Value

set_option maxRecDepth 16384

noncomputable section

namespace Cert.KernelIdeal.Whole

open Idealize.ShloMosaic Idealize.ShloMosaic.TcCoe Idealize.SL.Sem
open Idealize.ShloMosaic.Pipeline (Dat Cfg Window)
open Cert.KernelIdeal Cert.KernelIdeal.Gen Cert.KernelIdeal.GenP

variable {F : FTy → Type} [FloatOps F]

-- the TensorCore's buffer contents when the region is entered
variable (V : (c : Dev nD) → (b : Ref sig .tc) → Buf (Elt F) ((c : Thread nD τ).loc b))

theorem fill_zero_off : (![0, 0] : Fin 2 → Nat) = fun _ => 0 := funext fun a => by fin_cases a <;> rfl

/-- The constant array: −10⁹ (the word 0xCE6E6B28) at every index. -/
abbrev negFill : S12288x12288.Idx → Elt F .f32 := fun _ => Scalar.ofBits .f32 0xCE6E6B28#32

/-- The block index of point t: row-block t, column-block 0 (decided once over the 48 points). -/
theorem fill_index : ∀ t : Fin cfg1.N, win1_0.index t (0 : Fin 2) = t.val ∧ win1_0.index t (1 : Fin 2) = 0 :=
  (by decide +kernel : ∀ t : Fin grid1.N, _)

/-- What point t writes back is its block of the constant array. -/
theorem fill_flushed (c : Dev nD) (t : Fin cfg1.N) :
    (dat1 V c).flushed 0 t = ((cfg1.win 0).blk t).view.read (Elt F) (negFill (F := F)) := by
  show (cfg1.win 0).cut (grid1.coords t) ((dat1 V c).after 0 t) = _
  rw [after1_0]
  unfold out1_0
  rw [View.canon_unit_zero fill_zero_off]
  rfl

/-- An index is in point t's block iff each coordinate is in the block's range on its axis. -/
theorem fill_mem_blk (t : Fin cfg1.N) (i : S12288x12288.Idx) :
    i ∈ ((cfg1.win 0).blk t).view.set ↔ ∀ a : Fin 2, win1_0.index t a * S256x12288.size a ≤ (i a).val
      ∧ (i a).val < win1_0.index t a * S256x12288.size a + S256x12288.size a := by
  show i ∈ ((View.whole main_call0_v12).slice (win1_0.rect t)).set ↔ _
  rw [View.set_slice_whole, Rect.mem_set_unit]
  exact Iff.rfl

/-- Row r is in the block of point r / 256: the blocks cover the array. -/
theorem fill_cover (i : S12288x12288.Idx) :
    ∃ t : Fin cfg1.N, (cfg1.win 0).flush t = true ∧ i ∈ ((cfg1.win 0).blk t).view.set := by
  have hi0 : (i 0).val < 12288 := (i 0).isLt
  have hi1 : (i 1).val < 12288 := (i 1).isLt
  have hN : grid1.N = 48 := N_1
  have ht : (i 0).val / 256 < cfg1.N := by show (i 0).val / 256 < grid1.N; rw [hN]; omega
  obtain ⟨e0, e1⟩ := fill_index ⟨(i 0).val / 256, ht⟩
  have e0' : win1_0.index ⟨(i 0).val / 256, ht⟩ (0 : Fin 2) = (i 0).val / 256 := e0
  refine ⟨⟨(i 0).val / 256, ht⟩, flush1_0 _, ?_⟩
  rw [fill_mem_blk]
  intro a
  match a with
  | ⟨0, _⟩ =>
    show win1_0.index ⟨(i 0).val / 256, ht⟩ (0 : Fin 2) * 256 ≤ (i 0).val
      ∧ (i 0).val < win1_0.index ⟨(i 0).val / 256, ht⟩ (0 : Fin 2) * 256 + 256
    omega
  | ⟨1, _⟩ =>
    show win1_0.index ⟨(i 0).val / 256, ht⟩ (1 : Fin 2) * 12288 ≤ (i 1).val
      ∧ (i 1).val < win1_0.index ⟨(i 0).val / 256, ht⟩ (1 : Fin 2) * 12288 + 12288
    omega

/-- The score matrix when the fill region ends: the constant array. -/
theorem fill_final (c : Dev nD) : (dat1 V c).arrAt 0 cfg1.N = negFill (F := F) :=
  (dat1 V c).arrAt_eq_of_cover 0 _ (fun t _ => fill_flushed V c t) fill_cover

end Cert.KernelIdeal.Whole

end
-- ==== Proof.ProjectRegion.lean ====
/-
  The projection region: what its two output rows hold when the region ends.

  The grid has ONE point, and every window's block is its whole array (block index (0, 0) on every window): the body
  loads the node features h (12288 × 128) and two weight rows (1 × 128 each) and stores, for each weight row w, the row
  n ↦ Σ_k h[n, k] · w[k] (1 × 12288). So each output array ends as the body's stored value — the skeleton's payload —
  of the whole input arrays as the region finds them.
-/
import proofs.«165868_j76081050682084_2_alg».proof.Proof.KernelIdealFrameP
import Idealize.ShloMosaic.Lib.Pipeline.Value

set_option maxRecDepth 16384

noncomputable section

namespace Cert.KernelIdeal.Whole

open Idealize.ShloMosaic Idealize.ShloMosaic.TcCoe Idealize.SL.Sem
open Idealize.ShloMosaic.Pipeline (Dat Cfg Window)
open Cert.KernelIdeal Cert.KernelIdeal.Gen Cert.KernelIdeal.GenP

variable {F : FTy → Type} [FloatOps F]

-- the TensorCore's buffer contents when the region is entered
variable (V : (c : Dev nD) → (b : Ref sig .tc) → Buf (Elt F) ((c : Thread nD τ).loc b))

theorem proj_zero_off : (![0, 0] : Fin 2 → Nat) = fun _ => 0 := funext fun a => by fin_cases a <;> rfl

/-- Every window's block index at the one grid point is (0, 0). -/
theorem proj_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Input window 0's block is the whole feature array. -/
theorem blk_h (c : Dev nD) (t : Fin cfg0.N) : iblk0 V c 0 t = (V c main_arg0 : S12288x128.Idx → Elt F .f32) := by
  funext y
  unfold iblk0
  show V c main_arg0 (((cfg0.win 0).blk t).view.emb y) = V c main_arg0 y
  refine congrArg _ ?_
  funext a; apply Fin.ext
  obtain ⟨a00, a01, a10, a11, a20, a21, a30, a31, a40, a41⟩ := proj_index t
  match a with
  | ⟨0, _⟩ => show win0_0.index t (0 : Fin 2) * 12288 + 1 * (y 0).val = (y 0).val; omega
  | ⟨1, _⟩ => show win0_0.index t (1 : Fin 2) * 128 + 1 * (y 1).val = (y 1).val; omega

/-- Input window 1's block is the whole first weight row. -/
theorem blk_wd (c : Dev nD) (t : Fin cfg0.N) : iblk0 V c 1 t = (V c main_call0_v7 : S1x128.Idx → Elt F .f32) := by
  funext y
  unfold iblk0
  show V c main_call0_v7 (((cfg0.win 1).blk t).view.emb y) = V c main_call0_v7 y
  refine congrArg _ ?_
  funext a; apply Fin.ext
  obtain ⟨a00, a01, a10, a11, a20, a21, a30, a31, a40, a41⟩ := proj_index t
  match a with
  | ⟨0, _⟩ => show win0_1.index t (0 : Fin 2) * 1 + 1 * (y 0).val = (y 0).val; omega
  | ⟨1, _⟩ => show win0_1.index t (1 : Fin 2) * 128 + 1 * (y 1).val = (y 1).val; omega

/-- Input window 2's block is the whole second weight row. -/
theorem blk_ws (c : Dev nD) (t : Fin cfg0.N) : iblk0 V c 2 t = (V c main_call0_v8 : S1x128.Idx → Elt F .f32) := by
  funext y
  unfold iblk0
  show V c main_call0_v8 (((cfg0.win 2).blk t).view.emb y) = V c main_call0_v8 y
  refine congrArg _ ?_
  funext a; apply Fin.ext
  obtain ⟨a00, a01, a10, a11, a20, a21, a30, a31, a40, a41⟩ := proj_index t
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What the one point writes back through output window 3 is the (whole-array) block of the first payload of the whole feature array and the first weight row. -/
theorem proj3_flushed (c : Dev nD) (t : Fin cfg0.N) :
    (dat0 V c).flushed 3 t = ((cfg0.win 3).blk t).view.read (Elt F)
      (k0_pay1 (V c main_arg0 : S12288x128.Idx → Elt F .f32) (V c main_call0_v7 : S1x128.Idx → Elt F .f32)) := by
  show (cfg0.win 3).cut (grid0.coords t) ((dat0 V c).after 3 t) = _
  rw [after0_3]
  unfold out0_3
  rw [View.canon_unit_zero proj_zero_off]
  simp only [View.ld_unit_zero (S := S12288x128) proj_zero_off, View.ld_unit_zero (S := S1x128) proj_zero_off]
  rw [blk_h V c t, blk_wd V c t]
  funext j
  show k0_pay1 (V c main_arg0 : S12288x128.Idx → Elt F .f32) (V c main_call0_v7 : S1x128.Idx → Elt F .f32) ((cfg0.win 3).xinj (grid0.coords t) j)
    = k0_pay1 (V c main_arg0 : S12288x128.Idx → Elt F .f32) (V c main_call0_v7 : S1x128.Idx → Elt F .f32) (((cfg0.win 3).blk t).view.emb j)
  refine congrArg _ ?_
  funext a; apply Fin.ext
  obtain ⟨a00, a01, a10, a11, a20, a21, a30, a31, a40, a41⟩ := proj_index t
  match a with
  | ⟨0, _⟩ => show (j 0).val = win0_3.index t (0 : Fin 2) * 1 + 1 * (j 0).val; omega
  | ⟨1, _⟩ => show (j 1).val = win0_3.index t (1 : Fin 2) * 12288 + 1 * (j 1).val; omega

/-- An index is in the point's block of window 3 iff each coordinate is in the block's range on its axis. -/
theorem proj3_mem_blk (t : Fin cfg0.N) (i : S1x12288.Idx) :
    i ∈ ((cfg0.win 3).blk t).view.set ↔ ∀ a : Fin 2, win0_3.index t a * S1x12288.size a ≤ (i a).val
      ∧ (i a).val < win0_3.index t a * S1x12288.size a + S1x12288.size a := by
  show i ∈ ((View.whole main_call0_v9_0).slice (win0_3.rect t)).set ↔ _
  rw [View.set_slice_whole, Rect.mem_set_unit]
  exact Iff.rfl

/-- The one block is the whole array. -/
theorem proj3_cover (i : S1x12288.Idx) :
    ∃ t : Fin cfg0.N, (cfg0.win 3).flush t = true ∧ i ∈ ((cfg0.win 3).blk t).view.set := by
  have hi0 : (i 0).val < 1 := (i 0).isLt
  have hi1 : (i 1).val < 12288 := (i 1).isLt
  obtain ⟨a00, a01, a10, a11, a20, a21, a30, a31, a40, a41⟩ := proj_index t0_0
  refine ⟨t0_0, flush0_3 _, ?_⟩
  rw [proj3_mem_blk]
  intro a
  match a with
  | ⟨0, _⟩ =>
    show win0_3.index t0_0 (0 : Fin 2) * 1 ≤ (i 0).val ∧ (i 0).val < win0_3.index t0_0 (0 : Fin 2) * 1 + 1
    omega
  | ⟨1, _⟩ =>
    show win0_3.index t0_0 (1 : Fin 2) * 12288 ≤ (i 1).val ∧ (i 1).val < win0_3.index t0_0 (1 : Fin 2) * 12288 + 12288
    omega

/-- Output array 0 when the projection region ends: the first payload of the whole feature array and the first weight row. -/
theorem proj3_final (c : Dev nD) :
    (dat0 V c).arrAt 3 cfg0.N = k0_pay1 (V c main_arg0 : S12288x128.Idx → Elt F .f32) (V c main_call0_v7 : S1x128.Idx → Elt F .f32) :=
  (dat0 V c).arrAt_eq_of_cover 3 _ (fun t _ => proj3_flushed V c t) proj3_cover

/-- What the one point writes back through output window 4 is the (whole-array) block of the second payload of the whole feature array and the second weight row. -/
theorem proj4_flushed (c : Dev nD) (t : Fin cfg0.N) :
    (dat0 V c).flushed 4 t = ((cfg0.win 4).blk t).view.read (Elt F)
      (k0_pay2 (V c main_arg0 : S12288x128.Idx → Elt F .f32) (V c main_call0_v8 : S1x128.Idx → Elt F .f32)) := by
  show (cfg0.win 4).cut (grid0.coords t) ((dat0 V c).after 4 t) = _
  rw [after0_4]
  unfold out0_4
  rw [View.canon_unit_zero proj_zero_off]
  simp only [View.ld_unit_zero (S := S12288x128) proj_zero_off, View.ld_unit_zero (S := S1x128) proj_zero_off]
  rw [blk_h V c t, blk_ws V c t]
  funext j
  show k0_pay2 (V c main_arg0 : S12288x128.Idx → Elt F .f32) (V c main_call0_v8 : S1x128.Idx → Elt F .f32) ((cfg0.win 4).xinj (grid0.coords t) j)
    = k0_pay2 (V c main_arg0 : S12288x128.Idx → Elt F .f32) (V c main_call0_v8 : S1x128.Idx → Elt F .f32) (((cfg0.win 4).blk t).view.emb j)
  refine congrArg _ ?_
  funext a; apply Fin.ext
  obtain ⟨a00, a01, a10, a11, a20, a21, a30, a31, a40, a41⟩ := proj_index t
  match a with
  | ⟨0, _⟩ => show (j 0).val = win0_4.index t (0 : Fin 2) * 1 + 1 * (j 0).val; omega
  | ⟨1, _⟩ => show (j 1).val = win0_4.index t (1 : Fin 2) * 12288 + 1 * (j 1).val; omega

/-- An index is in the point's block of window 4 iff each coordinate is in the block's range on its axis. -/
theorem proj4_mem_blk (t : Fin cfg0.N) (i : S1x12288.Idx) :
    i ∈ ((cfg0.win 4).blk t).view.set ↔ ∀ a : Fin 2, win0_4.index t a * S1x12288.size a ≤ (i a).val
      ∧ (i a).val < win0_4.index t a * S1x12288.size a + S1x12288.size a := by
  show i ∈ ((View.whole main_call0_v9_1).slice (win0_4.rect t)).set ↔ _
  rw [View.set_slice_whole, Rect.mem_set_unit]
  exact Iff.rfl

/-- The one block is the whole array. -/
theorem proj4_cover (i : S1x12288.Idx) :
    ∃ t : Fin cfg0.N, (cfg0.win 4).flush t = true ∧ i ∈ ((cfg0.win 4).blk t).view.set := by
  have hi0 : (i 0).val < 1 := (i 0).isLt
  have hi1 : (i 1).val < 12288 := (i 1).isLt
  obtain ⟨a00, a01, a10, a11, a20, a21, a30, a31, a40, a41⟩ := proj_index t0_0
  refine ⟨t0_0, flush0_4 _, ?_⟩
  rw [proj4_mem_blk]
  intro a
  match a with
  | ⟨0, _⟩ =>
    show win0_4.index t0_0 (0 : Fin 2) * 1 ≤ (i 0).val ∧ (i 0).val < win0_4.index t0_0 (0 : Fin 2) * 1 + 1
    omega
  | ⟨1, _⟩ =>
    show win0_4.index t0_0 (1 : Fin 2) * 12288 ≤ (i 1).val ∧ (i 1).val < win0_4.index t0_0 (1 : Fin 2) * 12288 + 12288
    omega

/-- Output array 1 when the projection region ends: the second payload of the whole feature array and the second weight row. -/
theorem proj4_final (c : Dev nD) :
    (dat0 V c).arrAt 4 cfg0.N = k0_pay2 (V c main_arg0 : S12288x128.Idx → Elt F .f32) (V c main_call0_v8 : S1x128.Idx → Elt F .f32) :=
  (dat0 V c).arrAt_eq_of_cover 4 _ (fun t _ => proj4_flushed V c t) proj4_cover

end Cert.KernelIdeal.Whole

end
-- ==== Proof.HostStages.lean ====
/-
  The host code around the two regions, read back: the idealized kernel's result as ONE function of its six arguments.

  @forward's host operations, in the order they run:
    before the projection region — W[0, 0:128] and W[0, 128:256] as two 1 × 128 rows, W[0, 256] and b[0] as scalars;
    between the regions          — the projection's two 1 × 12288 output rows flattened to length-12288 vectors;
    after the fill region        — each index array wrapped (a negative index counts from the end: i ↦ i + 12288),
                                   the two vectors gathered at the wrapped destination and source indices, the
                                   per-edge value  hd[dest] + hs[source] + W[0, 256] · weight + b[0],  the index pairs
                                   (dest, source), and the scatter of the per-edge values into the filled matrix.
  Each stage is named below as a function of its operands. The buffer contents at each boundary are then read down to the
  launch memory: a buffer no later operation and no region writes keeps what it held; a region's output array holds
  what the region modules say; a host operation's result is its function of its operands' contents.
-/
import proofs.«165868_j76081050682084_2_alg».proof.Proof.KernelIdealFrameP
import proofs.«165868_j76081050682084_2_alg».proof.Proof.FillRegion
import proofs.«165868_j76081050682084_2_alg».proof.Proof.ProjectRegion
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.GenP

variable {F : FTy → Type} [FloatOps F]

/-! ## The stages, named -/

/-- A signed index wrapped: `i` if `0 ≤ i`, else `i + 12288` (a negative index counts from the end). -/
def wrapIdx (I : (⟨S393216, .i32⟩ : BufTy).Contents (Elt F)) : (⟨S393216, .i32⟩ : BufTy).Contents (Elt F) :=
  select (cmpi .slt I (broadcastInDim S393216 ![] bcast_S_S393216 (constantI S_ 32 0#32)))
    (addi I (broadcastInDim S393216 ![] bcast_S_S393216 (constantI S_ 32 12288#32))) I

/-- The wrapped indices as a column of start indices, one per edge. -/
def startCol (I : (⟨S393216, .i32⟩ : BufTy).Contents (Elt F)) : (⟨S393216x1, .i32⟩ : BufTy).Contents (Elt F) :=
  broadcastInDim S393216x1 ![0] bcast_S393216_S393216x1_0 (wrapIdx I)

/-- The scatter's index pairs: (wrapped destination, wrapped source), one pair per edge. -/
def edgePairs (S D : (⟨S393216, .i32⟩ : BufTy).Contents (Elt F)) : (⟨S393216x2, .i32⟩ : BufTy).Contents (Elt F) :=
  concatenate S393216x2 1 [⟨S393216x1, startCol D⟩, ⟨S393216x1, startCol S⟩] concatenates_S393216x1_S393216x1_S393216x2_d1

/-- W[0, 0:128] as a 1 × 128 row: the destination node's weights. -/
def rowD (W : (⟨S1x257, .f32⟩ : BufTy).Contents (Elt F)) : (⟨S1x128, .f32⟩ : BufTy).Contents (Elt F) :=
  broadcastInDim S1x128 ![1] bcast_S128_S1x128_1
    (shapeCast S128 (extractStridedSlice S1x128 ![0, 0] W slices_S1x257_S1x128_0_0) shapeCasts_S1x128_S128)

/-- W[0, 128:256] as a 1 × 128 row: the source node's weights. -/
def rowS (W : (⟨S1x257, .f32⟩ : BufTy).Contents (Elt F)) : (⟨S1x128, .f32⟩ : BufTy).Contents (Elt F) :=
  broadcastInDim S1x128 ![1] bcast_S128_S1x128_1
    (shapeCast S128 (extractStridedSlice S1x128 ![0, 128] W slices_S1x257_S1x128_0_128) shapeCasts_S1x128_S128)

/-- W[0, 256] as a scalar: the edge weight's coefficient. -/
def coefT (W : (⟨S1x257, .f32⟩ : BufTy).Contents (Elt F)) : (⟨S_, .f32⟩ : BufTy).Contents (Elt F) :=
  shapeCast S_ (extractStridedSlice S1x1 ![0, 256] W slices_S1x257_S1x1_0_256) shapeCasts_S1x1_S_

/-- b[0] as a scalar. -/
def biasB (B : (⟨S1, .f32⟩ : BufTy).Contents (Elt F)) : (⟨S_, .f32⟩ : BufTy).Contents (Elt F) :=
  shapeCast S_ B shapeCasts_S1_S_

/-- hd: per node, the features against the destination weights (the projection's first row, flattened). -/
def projD (H : (⟨S12288x128, .f32⟩ : BufTy).Contents (Elt F)) (W : (⟨S1x257, .f32⟩ : BufTy).Contents (Elt F)) : (⟨S12288, .f32⟩ : BufTy).Contents (Elt F) :=
  shapeCast S12288 (k0_pay1 H (rowD W)) shapeCasts_S1x12288_S12288

/-- hs: per node, the features against the source weights (the projection's second row, flattened). -/
def projS (H : (⟨S12288x128, .f32⟩ : BufTy).Contents (Elt F)) (W : (⟨S1x257, .f32⟩ : BufTy).Contents (Elt F)) : (⟨S12288, .f32⟩ : BufTy).Contents (Elt F) :=
  shapeCast S12288 (k0_pay2 H (rowS W)) shapeCasts_S1x12288_S12288

/-- The per-edge value from the two per-node vectors, the indices, the edge weights and the two scalars:
    hd[dest] + hs[source] + t · weight + b. -/
def edgeValsOf (HD HS : (⟨S12288, .f32⟩ : BufTy).Contents (Elt F)) (S D : (⟨S393216, .i32⟩ : BufTy).Contents (Elt F)) (Wt : (⟨S393216x1, .f32⟩ : BufTy).Contents (Elt F))
    (t b : (⟨S_, .f32⟩ : BufTy).Contents (Elt F)) : (⟨S393216, .f32⟩ : BufTy).Contents (Elt F) :=
  addf (addf (addf (Host.gather gather_S12288_S393216x1_S393216_n_0_n_n_0_1_1 HD (startCol D))
                   (Host.gather gather_S12288_S393216x1_S393216_n_0_n_n_0_1_1 HS (startCol S)))
             (mulf (broadcastInDim S393216 ![] bcast_S_S393216 t) (shapeCast S393216 Wt shapeCasts_S393216x1_S393216)))
       (broadcastInDim S393216 ![] bcast_S_S393216 b)

/-- The per-edge value of the arguments: hd[dest] + hs[source] + W[0, 256] · weight + b[0]. -/
def edgeVals (H : (⟨S12288x128, .f32⟩ : BufTy).Contents (Elt F)) (S D : (⟨S393216, .i32⟩ : BufTy).Contents (Elt F)) (Wt : (⟨S393216x1, .f32⟩ : BufTy).Contents (Elt F))
    (W : (⟨S1x257, .f32⟩ : BufTy).Contents (Elt F)) (B : (⟨S1, .f32⟩ : BufTy).Contents (Elt F)) : (⟨S393216, .f32⟩ : BufTy).Contents (Elt F) :=
  edgeValsOf (projD H W) (projS H W) S D Wt (coefT W) (biasB B)

/-- The kernel's result: the per-edge values scattered at the index pairs into the constant matrix. -/
def score (H : (⟨S12288x128, .f32⟩ : BufTy).Contents (Elt F)) (S D : (⟨S393216, .i32⟩ : BufTy).Contents (Elt F)) (Wt : (⟨S393216x1, .f32⟩ : BufTy).Contents (Elt F))
    (W : (⟨S1x257, .f32⟩ : BufTy).Contents (Elt F)) (B : (⟨S1, .f32⟩ : BufTy).Contents (Elt F)) : (⟨S12288x12288, .f32⟩ : BufTy).Contents (Elt F) :=
  Host.scatter scatter_S12288x12288_S393216x2_S393216_n_01_01_1 (fun _ b => b) (negFill (F := F)) (edgePairs S D)
    (edgeVals H S D Wt W B)

/-! ## The contents at each boundary, read down to the launch memory -/

variable (m : (ℓ : Loc nD τ sig) → Buf (Elt F) ℓ) (ρ : Dev nD → PrngReg)

/-- Entering the projection region, the feature array is as launched. -/
theorem V1_h (c : Dev nD) : V1 m ρ c main_arg0 = m ((c : Thread nD τ).loc main_arg0) := by
  show StableHlo.after hostOps0 (W0 m ρ c) (Proc.devRef .tc main_arg0) = _
  dsimp only [hostOps0]
  after_results

/-- Entering the projection region, the first weight row is W[0, 0:128]. -/
theorem V1_rowD (c : Dev nD) : V1 m ρ c main_call0_v7 = rowD (m ((c : Thread nD τ).loc main_arg4)) := by
  show StableHlo.after hostOps0 (W0 m ρ c) (Proc.devRef .tc main_call0_v7) = _
  dsimp only [hostOps0]
  after_results
  rfl

/-- Entering the projection region, the second weight row is W[0, 128:256]. -/
theorem V1_rowS (c : Dev nD) : V1 m ρ c main_call0_v8 = rowS (m ((c : Thread nD τ).loc main_arg4)) := by
  show StableHlo.after hostOps0 (W0 m ρ c) (Proc.devRef .tc main_call0_v8) = _
  dsimp only [hostOps0]
  after_results
  rfl

/-- After the fill region the source indices are as launched. -/
theorem W4_main_arg1 (c : Dev nD) : W4 m ρ c (Proc.devRef .tc main_arg1) = m ((c : Thread nD τ).loc main_arg1) := by
  rw [W4_of_ne m ρ c main_arg1 (by decide)]
  show StableHlo.after hostOps1 (W2 m ρ c) (Proc.devRef .tc main_arg1) = _
  dsimp only [hostOps1]
  after_results
  rw [W2_of_ne m ρ c main_arg1 (by decide)]
  show StableHlo.after hostOps0 (W0 m ρ c) (Proc.devRef .tc main_arg1) = _
  dsimp only [hostOps0]
  after_results

/-- After the fill region the destination indices are as launched. -/
theorem W4_main_arg2 (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  dsimp only [hostOps1]
  after_results
  rw [W2_of_ne m ρ c main_arg2 (by decide)]
  show StableHlo.after hostOps0 (W0 m ρ c) (Proc.devRef .tc main_arg2) = _
  dsimp only [hostOps0]
  after_results

/-- After the fill region the edge weights are as launched. -/
theorem W4_main_arg3 (c : Dev nD) : W4 m ρ c (Proc.devRef .tc main_arg3) = m ((c : Thread nD τ).loc main_arg3) := by
  rw [W4_of_ne m ρ c main_arg3 (by decide)]
  show StableHlo.after hostOps1 (W2 m ρ c) (Proc.devRef .tc main_arg3) = _
  dsimp only [hostOps1]
  after_results
  rw [W2_of_ne m ρ c main_arg3 (by decide)]
  show StableHlo.after hostOps0 (W0 m ρ c) (Proc.devRef .tc main_arg3) = _
  dsimp only [hostOps0]
  after_results

/-- After the fill region the coefficient scalar is W[0, 256]. -/
theorem W4_coefT (c : Dev nD) : W4 m ρ c (Proc.devRef .tc main_call0_v5) = coefT (m ((c : Thread nD τ).loc main_arg4)) := by
  rw [W4_of_ne m ρ c main_call0_v5 (by decide)]
  show StableHlo.after hostOps1 (W2 m ρ c) (Proc.devRef .tc main_call0_v5) = _
  dsimp only [hostOps1]
  after_results
  rw [W2_of_ne m ρ c main_call0_v5 (by decide)]
  show StableHlo.after hostOps0 (W0 m ρ c) (Proc.devRef .tc main_call0_v5) = _
  dsimp only [hostOps0]
  after_results
  rfl

/-- After the fill region the bias scalar is b[0]. -/
theorem W4_biasB (c : Dev nD) : W4 m ρ c (Proc.devRef .tc main_call0_v6) = biasB (m ((c : Thread nD τ).loc main_arg5)) := by
  rw [W4_of_ne m ρ c main_call0_v6 (by decide)]
  show StableHlo.after hostOps1 (W2 m ρ c) (Proc.devRef .tc main_call0_v6) = _
  dsimp only [hostOps1]
  after_results
  rw [W2_of_ne m ρ c main_call0_v6 (by decide)]
  show StableHlo.after hostOps0 (W0 m ρ c) (Proc.devRef .tc main_call0_v6) = _
  dsimp only [hostOps0]
  after_results
  rfl

/-- After the fill region the first flattened projection is hd of the launched features and W. -/
theorem W4_projD (c : Dev nD) : W4 m ρ c (Proc.devRef .tc main_call0_v10)
    = projD (m ((c : Thread nD τ).loc main_arg0)) (m ((c : Thread nD τ).loc main_arg4)) := by
  rw [W4_of_ne m ρ c main_call0_v10 (by decide)]
  show StableHlo.after hostOps1 (W2 m ρ c) (Proc.devRef .tc main_call0_v10) = _
  dsimp only [hostOps1]
  after_results
  have h3 : W2 m ρ c (Proc.devRef .tc main_call0_v9_0) = (dat0 (V1 m ρ) c).arrAt 3 cfg0.N := W2_arr m ρ c 3
  rw [h3, proj3_final, V1_h, V1_rowD]
  rfl

/-- After the fill region the second flattened projection is hs of the launched features and W. -/
theorem W4_projS (c : Dev nD) : W4 m ρ c (Proc.devRef .tc main_call0_v11)
    = projS (m ((c : Thread nD τ).loc main_arg0)) (m ((c : Thread nD τ).loc main_arg4)) := by
  rw [W4_of_ne m ρ c main_call0_v11 (by decide)]
  show StableHlo.after hostOps1 (W2 m ρ c) (Proc.devRef .tc main_call0_v11) = _
  dsimp only [hostOps1]
  after_results
  have h4 : W2 m ρ c (Proc.devRef .tc main_call0_v9_1) = (dat0 (V1 m ρ) c).arrAt 4 cfg0.N := W2_arr m ρ c 4
  rw [h4, proj4_final, V1_h, V1_rowS]
  rfl

/-- After the fill region the score matrix is the constant array. -/
theorem W4_fill (c : Dev nD) : W4 m ρ c (Proc.devRef .tc main_call0_v12) = negFill (F := F) :=
  (W4_arr m ρ c 0).trans (fill_final (V3 m ρ) c)

end Cert.KernelIdeal.Whole

end
-- ==== Proof.TailRuns.lean ====
/-
  The last stretch of host operations, read in five runs.

  The stretch is forty-three operations long. It is read in five runs, each over an ARBITRARY valuation of the buffers (so
  that each reading is a small computation): the destination indices wrapped and hd gathered at them (nine operations); the
  same for the source indices and hs (nine); the per-edge sum (seven); the index pairs (seventeen); the scatter (one).
  A run changes only the buffers its operations write; every buffer a later run reads and this run does not write keeps
  its contents.
-/
import proofs.«165868_j76081050682084_2_alg».proof.Proof.HostStages

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]

/-! ## The last stretch in five runs -/

/-- The destination indices wrapped, and hd gathered at them. -/
def opsA : List (HloOp τ sig (Elt F)) := (hostOps2 (F := F)).take 9
/-- The source indices wrapped, and hs gathered at them. -/
def opsB : List (HloOp τ sig (Elt F)) := ((hostOps2 (F := F)).drop 9).take 9
/-- The per-edge sum. -/
def opsC : List (HloOp τ sig (Elt F)) := ((hostOps2 (F := F)).drop 18).take 7
/-- The index pairs. -/
def opsD : List (HloOp τ sig (Elt F)) := ((hostOps2 (F := F)).drop 25).take 17
/-- The scatter. -/
def opsE : List (HloOp τ sig (Elt F)) := (hostOps2 (F := F)).drop 42

/-- The stretch is the five runs in order. -/
theorem ops_split : (hostOps2 (F := F)) = opsA ++ (opsB ++ (opsC ++ (opsD ++ opsE))) := rfl

local macro "fold_read" : tactic =>
  `(tactic| (dsimp only [opsA, opsB, opsC, opsD, opsE, hostOps2, List.take, List.drop]; after_results))

/-! ### What each run leaves in the buffer it is read for -/

/-- After the first run, hd gathered at the wrapped destination indices. -/
theorem A_gather (X : Valuation τ sig (Elt F)) : after (opsA (F := F)) X (Proc.devRef .tc main_call0_v19)
    = Host.gather gather_S12288_S393216x1_S393216_n_0_n_n_0_1_1 (X (Proc.devRef .tc main_call0_v10)) (startCol (X (Proc.devRef .tc main_arg2))) := by
  fold_read
  rfl

/-- After the second run, hs gathered at the wrapped source indices. -/
theorem B_gather (X : Valuation τ sig (Elt F)) : after (opsB (F := F)) X (Proc.devRef .tc main_call0_v26)
    = Host.gather gather_S12288_S393216x1_S393216_n_0_n_n_0_1_1 (X (Proc.devRef .tc main_call0_v11)) (startCol (X (Proc.devRef .tc main_arg1))) := by
  fold_read
  rfl

/-- After the third run, the per-edge sum of the two gathers, the weighted edge weight and the bias. -/
theorem C_sum (X : Valuation τ sig (Elt F)) : after (opsC (F := F)) X (Proc.devRef .tc main_call0_v33)
    = addf (addf (addf (X (Proc.devRef .tc main_call0_v19)) (X (Proc.devRef .tc main_call0_v26)))
        (mulf (broadcastInDim S393216 ![] bcast_S_S393216 (X (Proc.devRef .tc main_call0_v5)))
          (shapeCast S393216 (X (Proc.devRef .tc main_arg3)) shapeCasts_S393216x1_S393216)))
      (broadcastInDim S393216 ![] bcast_S_S393216 (X (Proc.devRef .tc main_call0_v6))) := by
  fold_read
  rfl

/-- After the fourth run, the index pairs. -/
theorem D_pairs (X : Valuation τ sig (Elt F)) : after (opsD (F := F)) X (Proc.devRef .tc main_call0_v46)
    = edgePairs (X (Proc.devRef .tc main_arg1)) (X (Proc.devRef .tc main_arg2)) := by
  fold_read
  rfl

/-- One three-operand operation writing the result buffer, its function ARBITRARY: the result buffer afterwards is that
    function of the three operands' contents. (Only the operands are read; the function is never looked into.) -/
theorem last_op_any (g : (⟨S12288x12288, .f32⟩ : BufTy).Contents (Elt F) → (⟨S393216x2, .i32⟩ : BufTy).Contents (Elt F) → (⟨S393216, .f32⟩ : BufTy).Contents (Elt F) → (⟨S12288x12288, .f32⟩ : BufTy).Contents (Elt F))
    (X : Valuation τ sig (Elt F)) :
    after [StableHlo.TRef.ternary (.of main_call0_v12 : StableHlo.TRef sig ⟨S12288x12288, .f32⟩)
        (.of main_call0_v46 : StableHlo.TRef sig ⟨S393216x2, .i32⟩) (.of main_call0_v33 : StableHlo.TRef sig ⟨S393216, .f32⟩)
        (.of main_v0 : StableHlo.TRef sig ⟨S12288x12288, .f32⟩) g] X (Proc.devRef .tc main_v0)
      = g (X (Proc.devRef .tc main_call0_v12)) (X (Proc.devRef .tc main_call0_v46)) (X (Proc.devRef .tc main_call0_v33)) := by
  after_results
  rfl

/-- The fifth run is that one operation, its function the scatter. -/
theorem opsE_eq : opsE (F := F)
    = [StableHlo.TRef.ternary (.of main_call0_v12 : StableHlo.TRef sig ⟨S12288x12288, .f32⟩)
        (.of main_call0_v46 : StableHlo.TRef sig ⟨S393216x2, .i32⟩) (.of main_call0_v33 : StableHlo.TRef sig ⟨S393216, .f32⟩)
        (.of main_v0 : StableHlo.TRef sig ⟨S12288x12288, .f32⟩)
        (fun x i u => Host.scatter scatter_S12288x12288_S393216x2_S393216_n_01_01_1 (fun _ b => b) x i u)] := rfl

/-- After the fifth run, the scatter of the per-edge values at the index pairs into the score matrix. -/
theorem E_scatter (X : Valuation τ sig (Elt F)) : after (opsE (F := F)) X (Proc.devRef .tc main_v0)
    = Host.scatter scatter_S12288x12288_S393216x2_S393216_n_01_01_1 (fun _ b => b)
        (X (Proc.devRef .tc main_call0_v12)) (X (Proc.devRef .tc main_call0_v46)) (X (Proc.devRef .tc main_call0_v33)) := by
  rw [opsE_eq]
  exact last_op_any _ X

/-! ### What each run leaves alone -/

theorem A_keep_v12 (X : Valuation τ sig (Elt F)) :
    after (opsA (F := F)) X (Proc.devRef .tc main_call0_v12) = X (Proc.devRef .tc main_call0_v12) := by fold_read
theorem A_keep_v11 (X : Valuation τ sig (Elt F)) :
    after (opsA (F := F)) X (Proc.devRef .tc main_call0_v11) = X (Proc.devRef .tc main_call0_v11) := by fold_read
theorem A_keep_arg1 (X : Valuation τ sig (Elt F)) :
    after (opsA (F := F)) X (Proc.devRef .tc main_arg1) = X (Proc.devRef .tc main_arg1) := by fold_read
theorem A_keep_arg2 (X : Valuation τ sig (Elt F)) :
    after (opsA (F := F)) X (Proc.devRef .tc main_arg2) = X (Proc.devRef .tc main_arg2) := by fold_read
theorem A_keep_arg3 (X : Valuation τ sig (Elt F)) :
    after (opsA (F := F)) X (Proc.devRef .tc main_arg3) = X (Proc.devRef .tc main_arg3) := by fold_read
theorem A_keep_v5 (X : Valuation τ sig (Elt F)) :
    after (opsA (F := F)) X (Proc.devRef .tc main_call0_v5) = X (Proc.devRef .tc main_call0_v5) := by fold_read
theorem A_keep_v6 (X : Valuation τ sig (Elt F)) :
    after (opsA (F := F)) X (Proc.devRef .tc main_call0_v6) = X (Proc.devRef .tc main_call0_v6) := by fold_read

theorem B_keep_v12 (X : Valuation τ sig (Elt F)) :
    after (opsB (F := F)) X (Proc.devRef .tc main_call0_v12) = X (Proc.devRef .tc main_call0_v12) := by fold_read
theorem B_keep_v19 (X : Valuation τ sig (Elt F)) :
    after (opsB (F := F)) X (Proc.devRef .tc main_call0_v19) = X (Proc.devRef .tc main_call0_v19) := by fold_read
theorem B_keep_arg1 (X : Valuation τ sig (Elt F)) :
    after (opsB (F := F)) X (Proc.devRef .tc main_arg1) = X (Proc.devRef .tc main_arg1) := by fold_read
theorem B_keep_arg2 (X : Valuation τ sig (Elt F)) :
    after (opsB (F := F)) X (Proc.devRef .tc main_arg2) = X (Proc.devRef .tc main_arg2) := by fold_read
theorem B_keep_arg3 (X : Valuation τ sig (Elt F)) :
    after (opsB (F := F)) X (Proc.devRef .tc main_arg3) = X (Proc.devRef .tc main_arg3) := by fold_read
theorem B_keep_v5 (X : Valuation τ sig (Elt F)) :
    after (opsB (F := F)) X (Proc.devRef .tc main_call0_v5) = X (Proc.devRef .tc main_call0_v5) := by fold_read
theorem B_keep_v6 (X : Valuation τ sig (Elt F)) :
    after (opsB (F := F)) X (Proc.devRef .tc main_call0_v6) = X (Proc.devRef .tc main_call0_v6) := by fold_read

theorem C_keep_v12 (X : Valuation τ sig (Elt F)) :
    after (opsC (F := F)) X (Proc.devRef .tc main_call0_v12) = X (Proc.devRef .tc main_call0_v12) := by fold_read
theorem C_keep_arg1 (X : Valuation τ sig (Elt F)) :
    after (opsC (F := F)) X (Proc.devRef .tc main_arg1) = X (Proc.devRef .tc main_arg1) := by fold_read
theorem C_keep_arg2 (X : Valuation τ sig (Elt F)) :
    after (opsC (F := F)) X (Proc.devRef .tc main_arg2) = X (Proc.devRef .tc main_arg2) := by fold_read

theorem D_keep_v12 (X : Valuation τ sig (Elt F)) :
    after (opsD (F := F)) X (Proc.devRef .tc main_call0_v12) = X (Proc.devRef .tc main_call0_v12) := by fold_read
theorem D_keep_v33 (X : Valuation τ sig (Elt F)) :
    after (opsD (F := F)) X (Proc.devRef .tc main_call0_v33) = X (Proc.devRef .tc main_call0_v33) := by fold_read

end Cert.KernelIdeal.Whole

end
-- ==== Proof.KernelRun.lean ====
/-
  The idealized kernel's whole run, with its result named.

  @main is five segments: nine host operations (the three slices of W and of b, reshaped), the projection region, two
  reshapes of its outputs, the fill region, and forty-three host operations (the index normalisation, the two gathers,
  the per-edge sum, the scatter). The frame module folds the buffer contents through those five segments — the launch
  memory, then the contents after each segment — and its last fold, `W5`, is what every buffer of the TensorCore that
  outlives the call holds when @main returns. Read at the result buffer and at the six argument arrays, that last
  state gives the run: every weakly fair execution terminates, nothing faulting, with the result buffer at `W5` of it
  and the arguments as launched.
-/
import proofs.«165868_j76081050682084_2_alg».proof.Proof.KernelIdealFrameP

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last fold's contents
    of it, and each argument array as launched. The result buffer is one of the buffers that outlive the call, so the
    thread state after the last segment holds it at those contents, and the final memory agrees with that state. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Whole

end
-- ==== Proof.KernelResult.lean ====
/-
  The idealized kernel's value: after every weakly fair execution the result buffer holds the per-edge values
  hd[dest] + hs[source] + W[0, 256] · weight + b[0], scattered at the index pairs (dest, source) into the matrix
  of −10⁹, all of them functions of the six arguments as launched.

  Composing the five readings of the last stretch from the contents after the fill region gives the result buffer as
  the scatter of the stage terms, and the boundary reads of the host-stages module turn those contents into functions
  of the arguments.
-/
import proofs.«165868_j76081050682084_2_alg».proof.Proof.TailRuns
import proofs.«165868_j76081050682084_2_alg».proof.Proof.KernelRun

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]

/-! ## The result -/

variable (m : (ℓ : Loc nD τ sig) → Buf (Elt F) ℓ) (ρ : Dev nD → PrngReg)

/-- The result buffer after the last stretch: the scatter of the per-edge values over what the stretch found in the
    score matrix, the index arrays, the two per-node vectors, the edge weights and the two scalars. -/
theorem tail_eq (c : Dev nD) : W5 m ρ c (Proc.devRef .tc main_v0)
    = Host.scatter scatter_S12288x12288_S393216x2_S393216_n_01_01_1 (fun _ b => b)
        (W4 m ρ c (Proc.devRef .tc main_call0_v12))
        (edgePairs (W4 m ρ c (Proc.devRef .tc main_arg1)) (W4 m ρ c (Proc.devRef .tc main_arg2)))
        (edgeValsOf (W4 m ρ c (Proc.devRef .tc main_call0_v10)) (W4 m ρ c (Proc.devRef .tc main_call0_v11))
          (W4 m ρ c (Proc.devRef .tc main_arg1)) (W4 m ρ c (Proc.devRef .tc main_arg2))
          (W4 m ρ c (Proc.devRef .tc main_arg3))
          (W4 m ρ c (Proc.devRef .tc main_call0_v5)) (W4 m ρ c (Proc.devRef .tc main_call0_v6))) := by
  show after (hostOps2 (F := F)) (W4 m ρ c) (Proc.devRef .tc main_v0) = _
  rw [ops_split, StableHlo.after_append, StableHlo.after_append, StableHlo.after_append, StableHlo.after_append]
  rw [E_scatter, D_keep_v12, D_pairs, D_keep_v33]
  rw [C_keep_v12, C_keep_arg1, C_keep_arg2, C_sum]
  rw [B_keep_v12, B_keep_arg1, B_keep_arg2, B_keep_v19, B_gather, B_keep_v5, B_keep_arg3, B_keep_v6]
  rw [A_keep_v12, A_keep_arg1, A_keep_arg2, A_gather, A_keep_v11, A_keep_v5, A_keep_arg3, A_keep_v6]
  rfl

/-- The result buffer when @main returns is `score` of the six arguments as launched. -/
theorem result_eq (c : Dev nD) : W5 m ρ c (Proc.devRef .tc main_v0)
    = score (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_eq, W4_fill, W4_main_arg1, W4_main_arg2, W4_main_arg3, W4_projD, W4_projS, W4_coefT, W4_biasB]
  rfl

/-- THE VALUE RUN: every weakly fair execution of @main terminates, nothing faulting, with the result buffer at `score`
    of the launched arguments and the arguments unchanged. -/
theorem value_run : θ_run defs (onTc (τ := τ) (main (F := F))) ⟨m, fun _ => 0, ρ⟩ (fun r => ∀ c : Dev nD,
      r.2.mem ((c.tc : Thread nD τ).loc main_v0)
        = score (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run m ρ)

end Cert.KernelIdeal.Whole

end
-- ==== Proof.GatherRows.lean ====
/-
  The two gathers, read at an index.

  The kernel gathers a length-12288 vector x at one start index per edge: result element e is x[r(e)], where r(e) is edge
  e's start index read as a signed integer and clamped into [0, 12287]. The reference gathers whole rows of the
  12288 × 128 feature array at the same start indices: result element (e, k) is h[r(e), k], the same r(e). Both follow
  from the gather's definition — on each operand axis the clamped start plus the batch coordinate plus the offset
  coordinate — at these dimension numbers: axis 0 is the indexed (collapsed) axis; the reference's axis 1 is an offset axis.
-/
import proofs.«165868_j76081050682084_2_alg».proof.Proof.Gen.KernelIdeal
import proofs.«165868_j76081050682084_2_alg».proof.Proof.Gen.ReferenceIdeal
import Idealize.ShloMosaic.Lib.ValueIdx

set_option maxRecDepth 16384

noncomputable section

namespace Cert.EdgeScore

open Idealize.ShloMosaic Idealize.ShloMosaic.ValueIdx

/-- A start index read signed and clamped into the rows of a 12288-row array. -/
def clampRow (v : BitVec 32) : Fin 12288 := ⟨min v.toInt.toNat (12288 - 1), by omega⟩

/-- Edge e's entry of a column of start indices. -/
abbrev colAt (e : Fin 393216) : (⟨2, ![393216, 1]⟩ : Shape).Idx := ix2 e (0 : Fin 1)

variable {α : Type}

/-- The kernel's gather at edge e: the vector at the clamped start index of e. -/
theorem gather_vec_apply (x : (⟨1, ![12288]⟩ : Shape).Idx → α) (idx : IVec ⟨2, ![393216, 1]⟩ 32) (e : Fin 393216) :
    Host.gather Cert.KernelIdeal.gather_S12288_S393216x1_S393216_n_0_n_n_0_1_1 x idx (ix1 e) = x (ix1 (clampRow (idx (colAt e)))) := by
  unfold Host.gather
  refine congrArg x ?_
  funext a
  obtain rfl : a = 0 := Subsingleton.elim _ _
  refine Fin.ext ?_
  show (Cert.KernelIdeal.gather_S12288_S393216x1_S393216_n_0_n_n_0_1_1).start (ix1 e) idx 0 + (Cert.KernelIdeal.gather_S12288_S393216x1_S393216_n_0_n_n_0_1_1).batchCoord (ix1 e) 0 + (Cert.KernelIdeal.gather_S12288_S393216x1_S393216_n_0_n_n_0_1_1).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (Cert.KernelIdeal.gather_S12288_S393216x1_S393216_n_0_n_n_0_1_1).startIndexMap from List.mem_singleton.mpr rfl)]
  have hsi : (Cert.KernelIdeal.gather_S12288_S393216x1_S393216_n_0_n_n_0_1_1).siIdx (ix1 e) ⟨List.idxOf (0 : Fin 1) (Cert.KernelIdeal.gather_S12288_S393216x1_S393216_n_0_n_n_0_1_1).startIndexMap,
      List.idxOf_lt_length_iff.2 (List.mem_singleton.mpr rfl)⟩ = colAt e := by
    funext b; refine Fin.ext ?_
    match b with
    | ⟨0, _⟩ => rfl
    | ⟨1, _⟩ => rfl
  rw [hsi]
  rfl

/-- The reference's gather at (e, k): the feature array at the clamped start index of e, column k. -/
theorem gather_rows_apply (x : (⟨2, ![12288, 128]⟩ : Shape).Idx → α) (idx : IVec ⟨2, ![393216, 1]⟩ 32) (e : Fin 393216) (k : Fin 128) :
    Host.gather Cert.ReferenceIdeal.gather_S12288x128_S393216x1_S393216x128_1_0_n_n_0_1_1128 x idx (ix2 e k) = x (ix2 (clampRow (idx (colAt e))) k) := by
  -- the indexed axis: the clamped start, no batch coordinate, no offset (the axis is collapsed)
  have h0 : (Cert.ReferenceIdeal.gather_S12288x128_S393216x1_S393216x128_1_0_n_n_0_1_1128).start (ix2 e k) idx (0 : Fin 2) + (Cert.ReferenceIdeal.gather_S12288x128_S393216x1_S393216x128_1_0_n_n_0_1_1128).batchCoord (ix2 e k) (0 : Fin 2)
      + (Cert.ReferenceIdeal.gather_S12288x128_S393216x1_S393216x128_1_0_n_n_0_1_1128).offCoord (ix2 e k) (0 : Fin 2) = (clampRow (idx (colAt e))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (Cert.ReferenceIdeal.gather_S12288x128_S393216x1_S393216x128_1_0_n_n_0_1_1128).startIndexMap from List.mem_singleton.mpr rfl)]
    have hsi : (Cert.ReferenceIdeal.gather_S12288x128_S393216x1_S393216x128_1_0_n_n_0_1_1128).siIdx (ix2 e k) ⟨List.idxOf (0 : Fin 2) (Cert.ReferenceIdeal.gather_S12288x128_S393216x1_S393216x128_1_0_n_n_0_1_1128).startIndexMap,
        List.idxOf_lt_length_iff.2 (List.mem_singleton.mpr rfl)⟩ = colAt e := by
      funext b; refine Fin.ext ?_
      match b with
      | ⟨0, _⟩ => rfl
      | ⟨1, _⟩ => rfl
    rw [hsi]
    rfl
  -- the feature axis: no start (the start index map does not name it), no batch coordinate, the offset coordinate k
  have h1 : (Cert.ReferenceIdeal.gather_S12288x128_S393216x1_S393216x128_1_0_n_n_0_1_1128).start (ix2 e k) idx (1 : Fin 2) + (Cert.ReferenceIdeal.gather_S12288x128_S393216x1_S393216x128_1_0_n_n_0_1_1128).batchCoord (ix2 e k) (1 : Fin 2)
      + (Cert.ReferenceIdeal.gather_S12288x128_S393216x1_S393216x128_1_0_n_n_0_1_1128).offCoord (ix2 e k) (1 : Fin 2) = k.val := by
    rw [GatherDims.batchCoord_eq_zero _ _ _ List.not_mem_nil]
    unfold GatherDims.start
    rw [dif_neg (show (1 : Fin 2) ∉ (Cert.ReferenceIdeal.gather_S12288x128_S393216x1_S393216x128_1_0_n_n_0_1_1128).startIndexMap from by decide)]
    unfold GatherDims.offCoord
    rw [dif_pos (show (1 : Fin 2) ∈ (Cert.ReferenceIdeal.gather_S12288x128_S393216x1_S393216x128_1_0_n_n_0_1_1128).sKept from by decide)]
    simp only [Nat.zero_add]
    rfl
  unfold Host.gather
  refine congrArg x ?_
  funext a
  refine Fin.ext ?_
  match a with
  | ⟨0, _⟩ => exact h0
  | ⟨1, _⟩ => exact h1

end Cert.EdgeScore

end
-- ==== Proof.KernelEdge.lean ====
/-
  The kernel's per-edge value, read at an edge, on the extended reals.

  At Ideal every float operation is the exact one, so the projection's stored row at node n is the plain sum
  Σ_k h[n, k] · w[k] (the lane reduction from the accumulator 0 is that sum), and the per-edge value at edge e is

      (Σ_k h[r_d(e), k] · W[0, k]  +  Σ_k h[r_s(e), k] · W[0, 128 + k])  +  W[0, 256] · weight[e, 0]  +  b[0],

  where r_d(e), r_s(e) are e's wrapped destination and source indices clamped into the rows of h.
-/
import proofs.«165868_j76081050682084_2_alg».proof.Proof.HostStages
import proofs.«165868_j76081050682084_2_alg».proof.Proof.GatherRows
import Idealize.ShloMosaic.Lib.Pipeline.Value
import Idealize.ShloMosaic.Lib.ValueIdx
import Idealize.ShloMosaic.PureOps.Ideal.Laws

set_option maxRecDepth 16384

noncomputable section

namespace Cert.KernelIdeal.Whole

open Idealize.ShloMosaic Idealize.ShloMosaic.ValueIdx Cert.EdgeScore
open Cert.KernelIdeal Cert.KernelIdeal.Gen

/-- The row of h that edge e reads through the index array I: I[e] wrapped, then clamped. -/
def rowOf (I : (⟨S393216, .i32⟩ : BufTy).Contents (Elt Ideal)) (e : Fin 393216) : Fin 12288 :=
  clampRow (startCol (F := Ideal) I (colAt e))

/-- The lane sum's source index over node r at lane k is (r, k). -/
theorem lift_node (r : Fin 12288) (k : Fin 128) :
    (reduces_S12288x128_S12288).lift (ix1 r) k = ix2 r k := by
  funext c; refine Fin.ext ?_
  match c with
  | ⟨0, _⟩ => rfl
  | ⟨1, _⟩ => rfl

/-- A weight row broadcast over the nodes, at (r, k), is the row at (0, k). -/
theorem rowBroadcast_apply (R : FVec Ideal S1x128 .f32) (r : Fin 12288) (k : Fin 128) :
    broadcastTo S12288x128 (shapeCast S1x128 R shapeCasts_S1x128_S1x128) broadcasts_S1x128_S12288x128 (ix2 r k)
      = R (ix2 (0 : Fin 1) k) := by
  rw [shapeCast_self]
  refine broadcastTo_apply R broadcasts_S1x128_S12288x128 (ix2 r k) (ix2 (0 : Fin 1) k) ?_
  intro a
  match a with
  | ⟨0, _⟩ => rfl
  | ⟨1, _⟩ => rfl

/-- The projection's first stored row at node r: Σ_k H[r, k] · R[0, k]. -/
theorem pay1_apply (H : FVec Ideal S12288x128 .f32) (R : FVec Ideal S1x128 .f32) (r : Fin 12288) :
    k0_pay1 (F := Ideal) H R (ix2 (0 : Fin 1) r) = ∑ k : Fin 128, H (ix2 r k) * R (ix2 (0 : Fin 1) k) := by
  unfold k0_pay1
  refine (shapeCast_apply _ shapeCasts_S12288_S1x12288 (ix2 (0 : Fin 1) r) (ix1 r) ?_).trans ?_
  · rw [Shape.rowMajor_val_one, Shape.rowMajor_val_two]; show r.val = 0 * 12288 + r.val; omega
  refine (Ideal.multiReduction_add_single _ 0x00000000#32 reduces_S12288x128_S12288 (.inl rfl) rfl (ix1 r)).trans ?_
  refine Finset.sum_congr rfl fun k _ => ?_
  refine (congrArg _ (lift_node r k)).trans ?_
  show H (ix2 r k) * _ = _
  exact congrArg _ (rowBroadcast_apply R r k)

/-- The projection's second stored row at node r: Σ_k H[r, k] · R[0, k]. -/
theorem pay2_apply (H : FVec Ideal S12288x128 .f32) (R : FVec Ideal S1x128 .f32) (r : Fin 12288) :
    k0_pay2 (F := Ideal) H R (ix2 (0 : Fin 1) r) = ∑ k : Fin 128, H (ix2 r k) * R (ix2 (0 : Fin 1) k) := by
  unfold k0_pay2
  refine (shapeCast_apply _ shapeCasts_S12288_S1x12288 (ix2 (0 : Fin 1) r) (ix1 r) ?_).trans ?_
  · rw [Shape.rowMajor_val_one, Shape.rowMajor_val_two]; show r.val = 0 * 12288 + r.val; omega
  refine (Ideal.multiReduction_add_single _ 0x00000000#32 reduces_S12288x128_S12288 (.inl rfl) rfl (ix1 r)).trans ?_
  refine Finset.sum_congr rfl fun k _ => ?_
  refine (congrArg _ (lift_node r k)).trans ?_
  show H (ix2 r k) * _ = _
  exact congrArg _ (rowBroadcast_apply R r k)

/-- The destination weight row at (0, k) is W[0, k]. -/
theorem rowD_apply (W : (⟨S1x257, .f32⟩ : BufTy).Contents (Elt Ideal)) (k : Fin 128) :
    rowD (F := Ideal) W (ix2 (0 : Fin 1) k) = W (ix2 (0 : Fin 1) (⟨k.val, by omega⟩ : Fin 257)) := by
  unfold rowD
  refine (broadcastInDim_apply _ bcast_S128_S1x128_1 _ (ix2 (0 : Fin 1) k) (ix1 k) ?_).trans ?_
  · intro a; match a with | ⟨0, _⟩ => rfl
  refine (shapeCast_apply _ shapeCasts_S1x128_S128 (ix1 k) (ix2 (0 : Fin 1) k) ?_).trans ?_
  · rw [Shape.rowMajor_val_one, Shape.rowMajor_val_two]; show 0 * 128 + k.val = k.val; omega
  refine extractStridedSlice_apply _ W slices_S1x257_S1x128_0_0 (ix2 (0 : Fin 1) k) (ix2 (0 : Fin 1) (⟨k.val, by omega⟩ : Fin 257)) ?_
  intro a
  match a with
  | ⟨0, _⟩ => rfl
  | ⟨1, _⟩ => show k.val = 0 + k.val; omega

/-- The source weight row at (0, k) is W[0, 128 + k]. -/
theorem rowS_apply (W : (⟨S1x257, .f32⟩ : BufTy).Contents (Elt Ideal)) (k : Fin 128) :
    rowS (F := Ideal) W (ix2 (0 : Fin 1) k) = W (ix2 (0 : Fin 1) (⟨128 + k.val, by omega⟩ : Fin 257)) := by
  unfold rowS
  refine (broadcastInDim_apply _ bcast_S128_S1x128_1 _ (ix2 (0 : Fin 1) k) (ix1 k) ?_).trans ?_
  · intro a; match a with | ⟨0, _⟩ => rfl
  refine (shapeCast_apply _ shapeCasts_S1x128_S128 (ix1 k) (ix2 (0 : Fin 1) k) ?_).trans ?_
  · rw [Shape.rowMajor_val_one, Shape.rowMajor_val_two]; show 0 * 128 + k.val = k.val; omega
  refine extractStridedSlice_apply _ W slices_S1x257_S1x128_0_128 (ix2 (0 : Fin 1) k) (ix2 (0 : Fin 1) (⟨128 + k.val, by omega⟩ : Fin 257)) ?_
  intro a
  match a with
  | ⟨0, _⟩ => rfl
  | ⟨1, _⟩ => rfl

/-- hd at node r: Σ_k H[r, k] · W[0, k]. -/
theorem projD_apply (H : (⟨S12288x128, .f32⟩ : BufTy).Contents (Elt Ideal)) (W : (⟨S1x257, .f32⟩ : BufTy).Contents (Elt Ideal)) (r : Fin 12288) :
    projD (F := Ideal) H W (ix1 r) = ∑ k : Fin 128, H (ix2 r k) * W (ix2 (0 : Fin 1) (⟨k.val, by omega⟩ : Fin 257)) := by
  unfold projD
  refine (shapeCast_apply _ shapeCasts_S1x12288_S12288 (ix1 r) (ix2 (0 : Fin 1) r) ?_).trans ?_
  · rw [Shape.rowMajor_val_one, Shape.rowMajor_val_two]; show 0 * 12288 + r.val = r.val; omega
  refine (pay1_apply H (rowD W) r).trans ?_
  exact Finset.sum_congr rfl fun k _ => congrArg _ (rowD_apply W k)

/-- hs at node r: Σ_k H[r, k] · W[0, 128 + k]. -/
theorem projS_apply (H : (⟨S12288x128, .f32⟩ : BufTy).Contents (Elt Ideal)) (W : (⟨S1x257, .f32⟩ : BufTy).Contents (Elt Ideal)) (r : Fin 12288) :
    projS (F := Ideal) H W (ix1 r) = ∑ k : Fin 128, H (ix2 r k) * W (ix2 (0 : Fin 1) (⟨128 + k.val, by omega⟩ : Fin 257)) := by
  unfold projS
  refine (shapeCast_apply _ shapeCasts_S1x12288_S12288 (ix1 r) (ix2 (0 : Fin 1) r) ?_).trans ?_
  · rw [Shape.rowMajor_val_one, Shape.rowMajor_val_two]; show 0 * 12288 + r.val = r.val; omega
  refine (pay2_apply H (rowS W) r).trans ?_
  exact Finset.sum_congr rfl fun k _ => congrArg _ (rowS_apply W k)

/-- The coefficient, broadcast over the edges, is W[0, 256] at every edge. -/
theorem coef_apply (W : (⟨S1x257, .f32⟩ : BufTy).Contents (Elt Ideal)) (e : Fin 393216) :
    broadcastInDim S393216 ![] bcast_S_S393216 (coefT (F := Ideal) W) (ix1 e) = W (ix2 (0 : Fin 1) (⟨256, by omega⟩ : Fin 257)) := by
  refine (broadcastInDim_apply _ bcast_S_S393216 _ (ix1 e) ix0 (fun a => a.elim0)).trans ?_
  unfold coefT
  refine (shapeCast_apply _ shapeCasts_S1x1_S_ ix0 (ix2 (0 : Fin 1) (0 : Fin 1)) ?_).trans ?_
  · rw [Shape.rowMajor_val_two]; rfl
  refine extractStridedSlice_apply _ W slices_S1x257_S1x1_0_256 (ix2 (0 : Fin 1) (0 : Fin 1)) (ix2 (0 : Fin 1) (⟨256, by omega⟩ : Fin 257)) ?_
  intro a
  match a with
  | ⟨0, _⟩ => rfl
  | ⟨1, _⟩ => rfl

/-- The bias, broadcast over the edges, is b[0] at every edge. -/
theorem bias_apply (B : (⟨S1, .f32⟩ : BufTy).Contents (Elt Ideal)) (e : Fin 393216) :
    broadcastInDim S393216 ![] bcast_S_S393216 (biasB (F := Ideal) B) (ix1 e) = B (ix1 (0 : Fin 1)) := by
  refine (broadcastInDim_apply _ bcast_S_S393216 _ (ix1 e) ix0 (fun a => a.elim0)).trans ?_
  unfold biasB
  refine shapeCast_apply _ shapeCasts_S1_S_ ix0 (ix1 (0 : Fin 1)) ?_
  rw [Shape.rowMajor_val_one]; rfl

/-- The edge weights flattened, at edge e, are weight[e, 0]. -/
theorem weight_apply (Wt : (⟨S393216x1, .f32⟩ : BufTy).Contents (Elt Ideal)) (e : Fin 393216) :
    shapeCast S393216 Wt shapeCasts_S393216x1_S393216 (ix1 e) = Wt (ix2 e (0 : Fin 1)) := by
  refine shapeCast_apply _ shapeCasts_S393216x1_S393216 (ix1 e) (ix2 e (0 : Fin 1)) ?_
  rw [Shape.rowMajor_val_one, Shape.rowMajor_val_two]; show e.val * 1 + 0 = e.val; omega

/-- THE KERNEL'S PER-EDGE VALUE at edge e. -/
theorem edgeVals_apply (H : (⟨S12288x128, .f32⟩ : BufTy).Contents (Elt Ideal)) (S D : (⟨S393216, .i32⟩ : BufTy).Contents (Elt Ideal)) (Wt : (⟨S393216x1, .f32⟩ : BufTy).Contents (Elt Ideal))
    (W : (⟨S1x257, .f32⟩ : BufTy).Contents (Elt Ideal)) (B : (⟨S1, .f32⟩ : BufTy).Contents (Elt Ideal)) (e : Fin 393216) :
    edgeVals (F := Ideal) H S D Wt W B (ix1 e)
      = ((∑ k : Fin 128, H (ix2 (rowOf D e) k) * W (ix2 (0 : Fin 1) (⟨k.val, by omega⟩ : Fin 257))
          + ∑ k : Fin 128, H (ix2 (rowOf S e) k) * W (ix2 (0 : Fin 1) (⟨128 + k.val, by omega⟩ : Fin 257)))
          + W (ix2 (0 : Fin 1) (⟨256, by omega⟩ : Fin 257)) * Wt (ix2 e (0 : Fin 1)))
        + B (ix1 (0 : Fin 1)) := by
  unfold edgeVals edgeValsOf
  show ((Host.gather gather_S12288_S393216x1_S393216_n_0_n_n_0_1_1 (projD (F := Ideal) H W) (startCol D) (ix1 e)
        + Host.gather gather_S12288_S393216x1_S393216_n_0_n_n_0_1_1 (projS (F := Ideal) H W) (startCol S) (ix1 e))
        + broadcastInDim S393216 ![] bcast_S_S393216 (coefT (F := Ideal) W) (ix1 e) * shapeCast S393216 Wt shapeCasts_S393216x1_S393216 (ix1 e))
      + broadcastInDim S393216 ![] bcast_S_S393216 (biasB (F := Ideal) B) (ix1 e) = _
  rw [gather_vec_apply, gather_vec_apply, coef_apply, bias_apply, weight_apply]
  show ((projD (F := Ideal) H W (ix1 (rowOf D e)) + projS (F := Ideal) H W (ix1 (rowOf S e))) + _) + _ = _
  rw [projD_apply, projS_apply]

end Cert.KernelIdeal.Whole

end
-- ==== Proof.ReferenceEdge.lean ====
/-
  The reference's per-edge value, read at an edge, on the extended reals.

  The reference joins, per edge e, the destination node's 128 features, the source node's 128 features and the edge
  weight into one row of 257 entries, takes its product with the column Wᵀ (257 × 1) and adds b[0]:

      Σ_{j < 257} row(e)[j] · W[0, j]  +  b[0],      row(e)[j] = h[r_d(e), j]          (j < 128)
                                                                 h[r_s(e), j − 128]    (128 ≤ j < 256)
                                                                 weight[e, 0]          (j = 256),

  r_d(e), r_s(e) the wrapped destination and source indices clamped into the rows of h. The generated read lemmas give the
  product as that sum and the bias as b[0]; written here are the three pieces of the joined row (a concatenation read where
  the coordinate falls) and the gathers (rows of h at the clamped start index).
-/
import proofs.«165868_j76081050682084_2_alg».proof.Proof.Gen.ReferenceIdeal.Read
import proofs.«165868_j76081050682084_2_alg».proof.Proof.GatherRows
import Idealize.ShloMosaic.Lib.Pipeline.Value
import Idealize.ShloMosaic.Lib.ValueIdx

set_option maxRecDepth 16384

noncomputable section

namespace Cert.ReferenceIdeal.RefValue

open Idealize.ShloMosaic Idealize.ShloMosaic.ValueIdx Cert.EdgeScore
open Cert.ReferenceIdeal Cert.ReferenceIdeal.Gen Cert.ReferenceIdeal.Read

variable (x0 : (⟨S12288x128, .f32⟩ : BufTy).Contents (Elt Ideal)) (x1 x2 : (⟨S393216, .i32⟩ : BufTy).Contents (Elt Ideal)) (x3 : (⟨S393216x1, .f32⟩ : BufTy).Contents (Elt Ideal))
  (x4 : (⟨S1x257, .f32⟩ : BufTy).Contents (Elt Ideal)) (x5 : (⟨S1, .f32⟩ : BufTy).Contents (Elt Ideal))

/-- The joined row of edge e at a destination-feature position k < 128: h at e's clamped destination row, column k. -/
theorem row_dest (e : Fin 393216) (k : Fin 128) :
    val_main_v14 (F := Ideal) x0 x1 x2 x3 (ix2 e (⟨k.val, by omega⟩ : Fin 257))
      = x0 (ix2 (clampRow (val_main_v5 (F := Ideal) x2 (colAt e))) k) := by
  refine Eq.trans ?_ (gather_rows_apply x0 (val_main_v5 (F := Ideal) x2) e k)
  unfold val_main_v14
  refine concatenate_apply_piece (1 : Fin S393216x257.rank)
    ([⟨S393216x128, val_main_v6 (F := Ideal) x0 x2⟩, ⟨S393216x128, val_main_v13 (F := Ideal) x0 x1⟩, ⟨S393216x1, x3⟩] : List ((s : Shape) × (s.Idx → Elt Ideal .f32)))
    concatenates_S393216x128_S393216x128_S393216x1_S393216x257_d1 _ 0 (by show 0 < 3; omega) S393216x128 (val_main_v6 (F := Ideal) x0 x2) rfl rfl 0 rfl
    (ix2 e k) ?_ ?_
  · intro b hb
    match b with
    | ⟨0, _⟩ => rfl
    | ⟨1, _⟩ => exact absurd rfl hb
  · show 0 + k.val = k.val; omega

/-- The joined row of edge e at a source-feature position 128 + k: h at e's clamped source row, column k. -/
theorem row_src (e : Fin 393216) (k : Fin 128) :
    val_main_v14 (F := Ideal) x0 x1 x2 x3 (ix2 e (⟨128 + k.val, by omega⟩ : Fin 257))
      = x0 (ix2 (clampRow (val_main_v12 (F := Ideal) x1 (colAt e))) k) := by
  refine Eq.trans ?_ (gather_rows_apply x0 (val_main_v12 (F := Ideal) x1) e k)
  unfold val_main_v14
  refine concatenate_apply_piece (1 : Fin S393216x257.rank)
    ([⟨S393216x128, val_main_v6 (F := Ideal) x0 x2⟩, ⟨S393216x128, val_main_v13 (F := Ideal) x0 x1⟩, ⟨S393216x1, x3⟩] : List ((s : Shape) × (s.Idx → Elt Ideal .f32)))
    concatenates_S393216x128_S393216x128_S393216x1_S393216x257_d1 _ 1 (by show 1 < 3; omega) S393216x128 (val_main_v13 (F := Ideal) x0 x1) rfl rfl 128 rfl
    (ix2 e k) ?_ ?_
  · intro b hb
    match b with
    | ⟨0, _⟩ => rfl
    | ⟨1, _⟩ => exact absurd rfl hb
  · show 128 + k.val = 128 + k.val; rfl

/-- The joined row of edge e at its last position: the edge weight. -/
theorem row_weight (e : Fin 393216) :
    val_main_v14 (F := Ideal) x0 x1 x2 x3 (ix2 e (⟨256, by omega⟩ : Fin 257)) = x3 (ix2 e (0 : Fin 1)) := by
  unfold val_main_v14
  refine concatenate_apply_piece (1 : Fin S393216x257.rank)
    ([⟨S393216x128, val_main_v6 (F := Ideal) x0 x2⟩, ⟨S393216x128, val_main_v13 (F := Ideal) x0 x1⟩, ⟨S393216x1, x3⟩] : List ((s : Shape) × (s.Idx → Elt Ideal .f32)))
    concatenates_S393216x128_S393216x128_S393216x1_S393216x257_d1 _ 2 (by show 2 < 3; omega) S393216x1 x3 rfl rfl 256 rfl
    (ix2 e (0 : Fin 1)) ?_ ?_
  · intro b hb
    match b with
    | ⟨0, _⟩ => rfl
    | ⟨1, _⟩ => exact absurd rfl hb
  · show 256 + 0 = 256; rfl

/-- The flattened result's index e is row (e, 0) of the 393216 × 1 product. -/
theorem idx_flat (e : Fin 393216) : idx_main_v20 (ix1 e) = ix2 e (0 : Fin 1) := by
  funext a; refine Fin.ext ?_
  match a with
  | ⟨0, _⟩ => show e.val / 1 = e.val; exact Nat.div_one _
  | ⟨1, _⟩ => rfl

/-- The product row (e, 0): the 257-term sum of the joined row against W[0, ·]. -/
theorem dot_apply (e : Fin 393216) :
    val_main_v16 (F := Ideal) x0 x1 x2 x3 x4 (ix2 e (0 : Fin 1))
      = ∑ j : Fin 257, val_main_v14 (F := Ideal) x0 x1 x2 x3 (ix2 e j) * x4 (ix2 (0 : Fin 1) j) := by
  refine (val_main_v16_apply x0 x1 x2 x3 x4 (ix2 e (0 : Fin 1))).trans ?_
  refine Finset.sum_congr rfl fun j _ => ?_
  have hl : lidx_main_v16 (ix2 e (0 : Fin 1)) j = ix2 e j := by
    funext a; refine Fin.ext ?_
    match a with
    | ⟨0, _⟩ => rfl
    | ⟨1, _⟩ => rfl
  have hr : idx_main_v15 (ridx_main_v16 (ix2 e (0 : Fin 1)) j) = ix2 (0 : Fin 1) j := by
    funext a; refine Fin.ext ?_
    match a with
    | ⟨0, _⟩ => rfl
    | ⟨1, _⟩ => rfl
  rw [hl, val_main_v15_apply, hr]

/-- The bias broadcast over the edges, at (e, 0), is b[0]. -/
theorem bias_apply (e : Fin 393216) : val_main_v18 (F := Ideal) x5 (ix2 e (0 : Fin 1)) = x5 (ix1 (0 : Fin 1)) := by
  refine (val_main_v18_apply x5 (ix2 e (0 : Fin 1))).trans ?_
  refine (val_main_v17_apply x5 _).trans ?_
  refine congrArg x5 ?_
  funext a; refine Fin.ext ?_
  match a with
  | ⟨0, _⟩ => rfl

/-- THE REFERENCE'S PER-EDGE VALUE at edge e, its 257-term sum still whole. -/
theorem refVals_apply (e : Fin 393216) :
    val_main_v20 (F := Ideal) x0 x1 x2 x3 x4 x5 (ix1 e)
      = (∑ j : Fin 257, val_main_v14 (F := Ideal) x0 x1 x2 x3 (ix2 e j) * x4 (ix2 (0 : Fin 1) j)) + x5 (ix1 (0 : Fin 1)) := by
  refine (val_main_v20_apply x0 x1 x2 x3 x4 x5 (ix1 e)).trans ?_
  refine (congrArg _ (idx_flat e)).trans ?_
  refine (val_main_v19_apply x0 x1 x2 x3 x4 x5 (ix2 e (0 : Fin 1))).trans ?_
  show val_main_v16 (F := Ideal) x0 x1 x2 x3 x4 (ix2 e (0 : Fin 1)) + val_main_v18 (F := Ideal) x5 (ix2 e (0 : Fin 1)) = _
  rw [dot_apply, bias_apply]

end Cert.ReferenceIdeal.RefValue

end
-- ==== Proof.SplitSum.lean ====
/-
  A sum over 257 terms, split where the edge's feature row is joined: the first 128 terms (the destination
  node's features), the next 128 (the source node's) and the last one (the edge weight). It holds in any
  commutative additive monoid, so in particular on the extended reals, where it needs no finiteness:
  only the order and the grouping of the terms change.
-/
import Mathlib.Algebra.BigOperators.Fin

namespace Cert.EdgeScore

open Finset

/-- `∑_{j < 257} f j = (∑_{k < 128} f k + ∑_{k < 128} f (128 + k)) + f 256`. -/
theorem sum_split_257 {M : Type} [AddCommMonoid M] (f : Fin 257 → M) :
    ∑ j, f j = (∑ k : Fin 128, f ⟨k.val, by omega⟩ + ∑ k : Fin 128, f ⟨128 + k.val, by omega⟩)
      + f ⟨256, by omega⟩ := by
  have h1 := Fin.sum_univ_castSucc (n := 256) f
  have h2 := Fin.sum_univ_add (a := 128) (b := 128) (fun i : Fin 256 => f i.castSucc)
  rw [h1, h2]
  rfl

end Cert.EdgeScore
-- ==== Proof.Bridge.lean ====
/-
  The kernel's result and the reference's result are one function of the six arguments, on the extended reals.

  Both results are the same scatter — same dimension numbers, same update rule (the update replaces the entry), same order of
  the updates — of per-edge values at index pairs into a constant matrix. So it is enough that the three operands agree:

    the matrix       both are −10⁹ (the same word) everywhere;
    the index pairs  the same term: each index array wrapped, the two columns joined;
    the values       at edge e the reference has  Σ_{j < 257} row(e)[j] · W[0, j] + b[0]  with row(e) the destination
                     node's features, the source node's features and the edge weight joined, and the kernel has
                     (Σ_k h[r_d, k]·W[0, k] + Σ_k h[r_s, k]·W[0, 128 + k]) + W[0, 256]·weight[e, 0] + b[0].
                     Splitting the 257-term sum at 128 and 256 and commuting the last product makes them equal. Only
                     commutativity and associativity of + and · are used, which hold on all of the extended reals:
                     no entry needs to be finite.
-/
import proofs.«165868_j76081050682084_2_alg».proof.Proof.KernelEdge
import proofs.«165868_j76081050682084_2_alg».proof.Proof.ReferenceEdge
import proofs.«165868_j76081050682084_2_alg».proof.Proof.SplitSum

set_option maxRecDepth 16384

noncomputable section

namespace Cert.EdgeScore

open Idealize.ShloMosaic Idealize.ShloMosaic.ValueIdx
open Cert.KernelIdeal.Whole Cert.ReferenceIdeal.RefValue Cert.ReferenceIdeal.Read

variable (x0 : (⟨Cert.ReferenceIdeal.S12288x128, .f32⟩ : BufTy).Contents (Elt Ideal))
  (x1 x2 : (⟨Cert.ReferenceIdeal.S393216, .i32⟩ : BufTy).Contents (Elt Ideal))
  (x3 : (⟨Cert.ReferenceIdeal.S393216x1, .f32⟩ : BufTy).Contents (Elt Ideal))
  (x4 : (⟨Cert.ReferenceIdeal.S1x257, .f32⟩ : BufTy).Contents (Elt Ideal))
  (x5 : (⟨Cert.ReferenceIdeal.S1, .f32⟩ : BufTy).Contents (Elt Ideal))

/-- The reference's column of wrapped destination indices is the kernel's. -/
theorem startD_eq : val_main_v5 (F := Ideal) x2 = startCol (F := Ideal) x2 := rfl

/-- The reference's column of wrapped source indices is the kernel's. -/
theorem startS_eq : val_main_v12 (F := Ideal) x1 = startCol (F := Ideal) x1 := rfl

/-- The per-edge values agree, edge by edge. -/
theorem vals_eq : edgeVals (F := Ideal) x0 x1 x2 x3 x4 x5 = val_main_v20 (F := Ideal) x0 x1 x2 x3 x4 x5 := by
  funext i
  obtain ⟨e, rfl⟩ : ∃ e : Fin 393216, i = ix1 e := ⟨i 0, eq_ix1 i⟩
  rw [edgeVals_apply, refVals_apply,
    sum_split_257 (fun j : Fin 257 => val_main_v14 (F := Ideal) x0 x1 x2 x3 (ix2 e j) * x4 (ix2 (0 : Fin 1) j))]
  simp only [row_dest, row_src, row_weight]
  rw [mul_comm (x3 (ix2 e (0 : Fin 1))) (x4 (ix2 (0 : Fin 1) (⟨256, by omega⟩ : Fin 257)))]
  rfl

/-- The index pairs agree. -/
theorem pairs_eq : edgePairs (F := Ideal) x1 x2 = val_main_v34 (F := Ideal) x1 x2 := rfl

/-- The constant matrices agree. -/
theorem fill_eq : negFill (F := Ideal) = val_main_v21 (F := Ideal) := by
  funext i
  rw [val_main_v21_apply, val_main_cst_apply]

/-- THE BRIDGE: the kernel's result function is the reference's. -/
theorem score_eq : score (F := Ideal) x0 x1 x2 x3 x4 x5 = val_main_v35 (F := Ideal) x0 x1 x2 x3 x4 x5 := by
  unfold score val_main_v35
  rw [vals_eq, pairs_eq, fill_eq]
  rfl

end Cert.EdgeScore

end
-- ==== Proof.lean ====
/-
  The certificate of an edge-scoring kernel against its reference, on the extended reals.

  Both programs take node features h (12288 × 128), per-edge source and destination node indices (393216 each), per-edge
  weights, a weight row W (1 × 257) and a bias b, and return a 12288 × 12288 matrix: −10⁹ everywhere, except that for each
  edge e the entry (dest[e], source[e]) is set to the edge's score
        [ h[dest[e]] , h[source[e]] , weight[e] ] · Wᵀ + b.
  The reference joins the three pieces into a row of 257 entries per edge and multiplies by Wᵀ. The kernel never forms
  that row: one region computes, per node n, hd[n] = Σ_k h[n, k]·W[0, k] and hs[n] = Σ_k h[n, k]·W[0, 128 + k]; a second
  region fills the matrix with −10⁹; host code gathers hd and hs at the edges' endpoints, adds W[0, 256]·weight[e] and b,
  and scatters.

  The proof: each program's run is read back as ONE function of the six arguments (the kernel's through its two regions
  and the host code around them; the reference's through its host operations), and the two functions are equal — the
  same scatter of equal per-edge values at the same index pairs into the same constant matrix. The per-edge values are
  equal because a sum of 257 products splits into the first 128, the next 128 and the last one, and a product commutes;
  both hold on all of the extended reals, so the precondition (finite inputs) is never used. The three frame claims are
  the programs' runs with the results dropped; there is nothing to preserve (the idealization rewrote no operation).
-/
import proofs.«165868_j76081050682084_2_alg».proof.Defs
import proofs.«165868_j76081050682084_2_alg».proof.Proof.Gen.Kernel
import proofs.«165868_j76081050682084_2_alg».proof.Proof.Gen.Kernel.Skeleton
import proofs.«165868_j76081050682084_2_alg».proof.Proof.Gen.Kernel.Launch
import proofs.«165868_j76081050682084_2_alg».proof.Proof.Gen.Kernel.Points
import proofs.«165868_j76081050682084_2_alg».proof.Proof.KernelFrameP
import proofs.«165868_j76081050682084_2_alg».proof.Proof.Gen.KernelIdeal
import proofs.«165868_j76081050682084_2_alg».proof.Proof.Gen.KernelIdeal.Skeleton
import proofs.«165868_j76081050682084_2_alg».proof.Proof.Gen.KernelIdeal.Launch
import proofs.«165868_j76081050682084_2_alg».proof.Proof.Gen.KernelIdeal.Points
import proofs.«165868_j76081050682084_2_alg».proof.Proof.KernelIdealFrameP
import proofs.«165868_j76081050682084_2_alg».proof.Proof.Gen.ReferenceIdeal
import proofs.«165868_j76081050682084_2_alg».proof.Proof.Gen.ReferenceIdeal.Run
import proofs.«165868_j76081050682084_2_alg».proof.Proof.Gen.ReferenceIdeal.Read
import proofs.«165868_j76081050682084_2_alg».proof.Proof.Gen.Pre_finite_inputs
import proofs.«165868_j76081050682084_2_alg».proof.Proof.KernelResult
import proofs.«165868_j76081050682084_2_alg».proof.Proof.Bridge
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both idealized programs run to the end with the same result: the kernel's
    result function of the arguments is the reference's. -/
theorem algebraic : Cert.algebraic_KernelIdeal_ReferenceIdeal := by
  intro m ρ m' ρ' _ hagree
  refine ⟨_, Cert.KernelIdeal.Whole.value_run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v35_eq _ _ _ _ _ _).trans ?_
  rw [(hagree c).1, (hagree c).2.1, (hagree c).2.2.1, (hagree c).2.2.2.1, (hagree c).2.2.2.2.1, (hagree c).2.2.2.2.2]
  exact (Cert.EdgeScore.score_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
